-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x1 : Shape := ⟨2, ![100000, 1]⟩
abbrev S100000 : Shape := ⟨1, ![100000]⟩
abbrev S10000x64 : Shape := ⟨2, ![10000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S32x1 .f32) (main_arg11 : FVec F S1 .f32) (main_v33 : IVec S_ 1) : IVec S_ 1 :=
  let main_v34 : FVec F S32x1 .f32 := Host.absf main_arg10
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S64 .f32) (main_arg8 : FVec F S64x32 .f32) (main_arg9 : FVec F S32 .f32) (main_arg10 : FVec F S32x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg8
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg10 main_arg11 main_v33

def fn {F : FTy → Type} [FloatOps F] (main_arg0 : IVec S2x3200000 32) (main_arg1 : IVec S100000x1 32) (main_arg2 : IVec S100000 32) (main_arg3 : FVec F S10000x64 .f32) (main_arg4 : FVec F S64x64 .f32) (main_arg5 : FVec F S64 .f32) (main_arg6 : FVec F S64x64 .f32) (main_arg7 : FVec F S64 .f32) (main_arg8 : FVec F S64x32 .f32) (main_arg9 : FVec F S32 .f32) (main_arg10 : FVec F S32x1 .f32) (main_arg11 : FVec F S1 .f32) : IVec S_ 1 :=
  let main_v0 : FVec F S10000x64 .f32 := Host.absf main_arg3
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S2x3200000 : Shape := ⟨2, ![2, 3200000]⟩
abbrev S100000x1 : Shape := ⟨2, ![100000, 1]⟩
abbrev S100000 : Shape := ⟨1, ![100000]⟩
abbrev S10000x64 : Shape := ⟨2, ![10000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S1x64 : Shape := ⟨2, ![1, 64]⟩
abbrev S10000x1 : Shape := ⟨2, ![10000, 1]⟩
abbrev S100000x32 : Shape := ⟨2, ![100000, 32]⟩
abbrev S10000x32 : Shape := ⟨2, ![10000, 32]⟩
abbrev S3200000x32 : Shape := ⟨2, ![3200000, 32]⟩
abbrev S1x32 : Shape := ⟨2, ![1, 32]⟩
abbrev S1024x32 : Shape := ⟨2, ![1024, 32]⟩
abbrev S1024 : Shape := ⟨1, ![1024]⟩
abbrev S1024x1 : Shape := ⟨2, ![1024, 1]⟩
abbrev S1x1 : Shape := ⟨2, ![1, 1]⟩

abbrev nBuf : Space → Nat
  | .hbm => 137
  | .vmem => 42
  | .smem => 0
  | _ => 0

abbrev hbmTy0_0 (i : Nat) : BufTy := match i % 128 with
  | 0 => ⟨S2x3200000, .i32⟩
  | 1 => ⟨S100000x1, .i32⟩
  | 2 => ⟨S100000, .i32⟩
  | 3 => ⟨S10000x64, .f32⟩
  | 4 => ⟨S64x64, .f32⟩
  | 5 => ⟨S64, .f32⟩
  | 6 => ⟨S64x64, .f32⟩
  | 7 => ⟨S64, .f32⟩
  | 8 => ⟨S64x32, .f32⟩
  | 9 => ⟨S32, .f32⟩
  | 10 => ⟨S32x1, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S100000, .f32⟩
  | 46 => ⟨S100000, .i32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x64, .f32⟩
  | 56 => ⟨S100000x64, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x64, .f32⟩
  | 66 => ⟨S3200000x1, .f32⟩
  | 67 => ⟨S3200000x64, .f32⟩
  | 68 => ⟨S3200000x64, .f32⟩
  | 69 => ⟨S_, .f32⟩
  | 70 => ⟨S100000x64, .f32⟩
  | 71 => ⟨S3200000x1, .i32⟩
  | 72 => ⟨S100000x64, .f32⟩
  | 73 => ⟨S100000x1, .f32⟩
  | 74 => ⟨S1x64, .f32⟩
  | 75 => ⟨S100000x64, .f32⟩
  | 76 => ⟨S100000x64, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x64, .f32⟩
  | 86 => ⟨S3200000x1, .f32⟩
  | 87 => ⟨S3200000x64, .f32⟩
  | 88 => ⟨S3200000x64, .f32⟩
  | 89 => ⟨S_, .f32⟩
  | 90 => ⟨S100000x64, .f32⟩
  | 91 => ⟨S3200000x1, .i32⟩
  | 92 => ⟨S100000x64, .f32⟩
  | 93 => ⟨S100000x1, .f32⟩
  | 94 => ⟨S1x64, .f32⟩
  | 95 => ⟨S100000x64, .f32⟩
  | 96 => ⟨S100000x32, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000x32, .f32⟩
  | 106 => ⟨S3200000x1, .f32⟩
  | 107 => ⟨S3200000x32, .f32⟩
  | 108 => ⟨S3200000x32, .f32⟩
  | 109 => ⟨S_, .f32⟩
  | 110 => ⟨S100000x32, .f32⟩
  | 111 => ⟨S3200000x1, .i32⟩
  | 112 => ⟨S100000x32, .f32⟩
  | 113 => ⟨S100000x1, .f32⟩
  | 114 => ⟨S1x32, .f32⟩
  | 115 => ⟨S100000x32, .f32⟩
  | 116 => ⟨S_, .f32⟩
  | 117 => ⟨S1024x32, .f32⟩
  | 118 => ⟨S100000x1, .i32⟩
  | 119 => ⟨S1024x32, .f32⟩
  | 120 => ⟨S_, .f32⟩
  | 121 => ⟨S100000, .f32⟩
  | 122 => ⟨S_, .f32⟩
  | 123 => ⟨S1024, .f32⟩
  | 124 => ⟨S100000x1, .i32⟩
  | 125 => ⟨S1024, .f32⟩
  | 126 => ⟨S_, .f32⟩
  | 127 => ⟨S1024, .f32⟩
  | _ => ⟨S2x3200000, .i32⟩

abbrev hbmTy0_1 (i : Nat) : BufTy := match i % 128 with
  | 0 => ⟨S1024, .f32⟩
  | 1 => ⟨S1024x1, .f32⟩
  | 2 => ⟨S1024x32, .f32⟩
  | 3 => ⟨S1024x32, .f32⟩
  | 4 => ⟨S1024x1, .f32⟩
  | 5 => ⟨S1x1, .f32⟩
  | 6 => ⟨S1024x1, .f32⟩
  | 7 => ⟨S1024x1, .f32⟩
  | 8 => ⟨S1024, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x1, .f32⟩
  | .local _ .vmem, ⟨38, _⟩ => ⟨S10000x1, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000x1_S100000 : S100000x1.ShapeCasts S100000
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S_S1024x32 : S_.BroadcastsInDim S1024x32 (![] : Fin 0 → Fin S1024x32.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S10000x64_S100000x1_S100000x64_1_0_n_n_0_1_164_wf : GatherDims.WF S10000x64 S100000x1 S100000x64 [1] [0] [] [0] [] 1 ![1, 64]
  dot_S10000x64_S64x64_S10000x64_1_0_0_1_n_n_wf : DotDims.WF S10000x64 S64x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x32_S10000x32_1_0_0_1_n_n_wf : DotDims.WF S10000x64 S64x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S1024x32_S100000x1_S100000x32_1_0_0_1_wf : ScatterDims.WF S1024x32 S100000x1 S100000x32 [1] [0] [0] 1
  scatter_S1024_S100000x1_S100000_n_0_0_1_wf : ScatterDims.WF S1024 S100000x1 S100000 [] [0] [0] 1
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S100000x32.size a
  hwx5_1 : ∀ i : grid5.Coords, EltTy.bits .f32 = 32 ∨ (Rect.block (s := S100000x32) S10000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x32.size a ≤ S100000x32.size a
  hwx5_4 : ∀ i : grid5.Coords, EltTy.bits .f32 = 32 ∨ (Rect.block (s := S100000x32) S10000x32.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S10000x64_S100000x1_S100000x64_1_0_n_n_0_1_164 : GatherDims S10000x64 S100000x1 S100000x64 where
  offsetDims := [1]
  collapsedSliceDims := [0]
  operandBatchingDims := []
  startIndicesBatchingDims := []
  startIndexMap := [0]
  indexVectorDim := 1
  sliceSizes := ![1, 64]
  wf := gather_S10000x64_S100000x1_S100000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S1024x32_S100000x1_S100000x32_1_0_0_1 : ScatterDims S1024x32 S100000x1 S100000x32 where
  updateWindowDims := [1]
  insertedWindowDims := [0]
  scatterDimsToOperandDims := [0]
  indexVectorDim := 1
  wf := scatter_S1024x32_S100000x1_S100000x32_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v34) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v68) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v83) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S10000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S2x3200000 : Shape := ⟨2, ![2, 3200000]⟩
abbrev S100000x1 : Shape := ⟨2, ![100000, 1]⟩
abbrev S100000 : Shape := ⟨1, ![100000]⟩
abbrev S10000x64 : Shape := ⟨2, ![10000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S1024x32 : Shape := ⟨2, ![1024, 32]⟩
abbrev S1024 : Shape := ⟨1, ![1024]⟩
abbrev S1024x1 : Shape := ⟨2, ![1024, 1]⟩
abbrev S1x1 : Shape := ⟨2, ![1, 1]⟩

abbrev nBuf : Space → Nat
  | .hbm => 170
  | .vmem => 0
  | .smem => 0
  | _ => 0

abbrev hbmTy0_0 (i : Nat) : BufTy := match i % 128 with
  | 0 => ⟨S2x3200000, .i32⟩
  | 1 => ⟨S100000x1, .i32⟩
  | 2 => ⟨S100000, .i32⟩
  | 3 => ⟨S10000x64, .f32⟩
  | 4 => ⟨S64x64, .f32⟩
  | 5 => ⟨S64, .f32⟩
  | 6 => ⟨S64x64, .f32⟩
  | 7 => ⟨S64, .f32⟩
  | 8 => ⟨S64x32, .f32⟩
  | 9 => ⟨S32, .f32⟩
  | 10 => ⟨S32x1, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S100000, .f32⟩
  | 46 => ⟨S100000, .i32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x64, .f32⟩
  | 56 => ⟨S100000x64, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x64, .f32⟩
  | 66 => ⟨S3200000x1, .f32⟩
  | 67 => ⟨S3200000x64, .f32⟩
  | 68 => ⟨S3200000x64, .f32⟩
  | 69 => ⟨S_, .f32⟩
  | 70 => ⟨S100000x64, .f32⟩
  | 71 => ⟨S3200000x1, .i32⟩
  | 72 => ⟨S100000x64, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .i1⟩
  | 83 => ⟨S_, .f32⟩
  | 84 => ⟨S100000x64, .f32⟩
  | 85 => ⟨S100000x64, .f32⟩
  | 86 => ⟨S100000x64, .f32⟩
  | 87 => ⟨S100000x64, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x64, .f32⟩
  | 97 => ⟨S3200000x1, .f32⟩
  | 98 => ⟨S3200000x64, .f32⟩
  | 99 => ⟨S3200000x64, .f32⟩
  | 100 => ⟨S_, .f32⟩
  | 101 => ⟨S100000x64, .f32⟩
  | 102 => ⟨S3200000x1, .i32⟩
  | 103 => ⟨S100000x64, .f32⟩
  | 104 => ⟨S100000x1, .f32⟩
  | 105 => ⟨S100000x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .i1⟩
  | 114 => ⟨S_, .f32⟩
  | 115 => ⟨S100000x64, .f32⟩
  | 116 => ⟨S100000x64, .f32⟩
  | 117 => ⟨S100000x64, .f32⟩
  | 118 => ⟨S100000x32, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S3200000x32, .f32⟩
  | _ => ⟨S2x3200000, .i32⟩

abbrev hbmTy0_1 (i : Nat) : BufTy := match i % 128 with
  | 0 => ⟨S3200000x1, .f32⟩
  | 1 => ⟨S3200000x32, .f32⟩
  | 2 => ⟨S3200000x32, .f32⟩
  | 3 => ⟨S_, .f32⟩
  | 4 => ⟨S100000x32, .f32⟩
  | 5 => ⟨S3200000x1, .i32⟩
  | 6 => ⟨S100000x32, .f32⟩
  | 7 => ⟨S100000x1, .f32⟩
  | 8 => ⟨S100000x32, .f32⟩
  | 9 => ⟨S100000x32, .f32⟩
  | 10 => ⟨S100000x32, .f32⟩
  | 11 => ⟨S1x32, .f32⟩
  | 12 => ⟨S100000x32, .f32⟩
  | 13 => ⟨S100000x32, .f32⟩
  | 14 => ⟨S_, .f32⟩
  | 15 => ⟨S100000x32, .f32⟩
  | 16 => ⟨S100000x32, .i1⟩
  | 17 => ⟨S_, .f32⟩
  | 18 => ⟨S100000x32, .f32⟩
  | 19 => ⟨S100000x32, .f32⟩
  | 20 => ⟨S100000x32, .f32⟩
  | 21 => ⟨S_, .f32⟩
  | 22 => ⟨S1024x32, .f32⟩
  | 23 => ⟨S100000x1, .i32⟩
  | 24 => ⟨S1024x32, .f32⟩
  | 25 => ⟨S_, .f32⟩
  | 26 => ⟨S100000, .f32⟩
  | 27 => ⟨S_, .f32⟩
  | 28 => ⟨S1024, .f32⟩
  | 29 => ⟨S100000x1, .i32⟩
  | 30 => ⟨S1024, .f32⟩
  | 31 => ⟨S_, .f32⟩
  | 32 => ⟨S1024, .f32⟩
  | 33 => ⟨S1024, .f32⟩
  | 34 => ⟨S1024x1, .f32⟩
  | 35 => ⟨S1024x32, .f32⟩
  | 36 => ⟨S1024x32, .f32⟩
  | 37 => ⟨S1024x1, .f32⟩
  | 38 => ⟨S1x1, .f32⟩
  | 39 => ⟨S1024x1, .f32⟩
  | 40 => ⟨S1024x1, .f32⟩
  | 41 => ⟨S1024, .f32⟩
  | _ => ⟨S2x3200000, .i32⟩

abbrev hbmTy (i : Nat) : BufTy := match i / 128 with
  | 0 => hbmTy0_0 i
  | 1 => hbmTy0_1 i
  | _ => ⟨S2x3200000, .i32⟩

abbrev bufTy : (tb : Table) → Fin (tcTables nBuf tb) → BufTy
  | .hbm, ⟨i, _⟩ => hbmTy i
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_c_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_20 : Ref sig .tc := ⟨.hbm, 142, rfl⟩
abbrev main_v108 : Ref sig .tc := ⟨.hbm, 143, rfl⟩
abbrev main_v109 : Ref sig .tc := ⟨.hbm, 144, rfl⟩
abbrev main_cst_21 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_22 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_23 : Ref sig .tc := ⟨.hbm, 153, rfl⟩
abbrev main_v116 : Ref sig .tc := ⟨.hbm, 154, rfl⟩
abbrev main_cst_24 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_25 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000x1_S100000 : S100000x1.ShapeCasts S100000
  bcast_S100000_S100000x1_0 : S100000.BroadcastsInDim S100000x1 (![0] : Fin 1 → Fin S100000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1024x32 : S_.BroadcastsInDim S1024x32 (![] : Fin 0 → Fin S1024x32.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S10000x64_S100000x1_S100000x64_1_0_n_n_0_1_164_wf : GatherDims.WF S10000x64 S100000x1 S100000x64 [1] [0] [] [0] [] 1 ![1, 64]
  dot_S100000x64_S64x64_S100000x64_1_0_0_1_n_n_wf : DotDims.WF S100000x64 S64x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S1024x32_S100000x1_S100000x32_1_0_0_1_wf : ScatterDims.WF S1024x32 S100000x1 S100000x32 [1] [0] [0] 1
  scatter_S1024_S100000x1_S100000_n_0_0_1_wf : ScatterDims.WF S1024 S100000x1 S100000 [] [0] [0] 1
  dot_S1024x32_S32x1_S1024x1_1_0_0_1_n_n_wf : DotDims.WF S1024x32 S32x1 S1024x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S10000x64_S100000x1_S100000x64_1_0_n_n_0_1_164 : GatherDims S10000x64 S100000x1 S100000x64 where
  offsetDims := [1]
  collapsedSliceDims := [0]
  operandBatchingDims := []
  startIndicesBatchingDims := []
  startIndexMap := [0]
  indexVectorDim := 1
  sliceSizes := ![1, 64]
  wf := gather_S10000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S1024x32_S100000x1_S100000x32_1_0_0_1 : ScatterDims S1024x32 S100000x1 S100000x32 where
  updateWindowDims := [1]
  insertedWindowDims := [0]
  scatterDimsToOperandDims := [0]
  indexVectorDim := 1
  wf := scatter_S1024x32_S100000x1_S100000x32_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.KRun.lean ====
/-
  The idealized kernel's run with its result named. Every weakly fair execution of the program from a memory m
  terminates without a fault; at the end each argument array holds what it held at launch, and the result array holds
  the last boundary's contents of the result buffer: the fold of the host stretches and of the six pallas_calls'
  write-backs over m.
-/
import proofs.«120870_j60653528154494_1_alg».proof.Proof.Gen.KernelIdeal.Frame
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the six regions and five host stretches, read at the end: the result buffer at the last boundary's
    contents, the twelve arguments as launched. -/
theorem run : θ_run defs (onTc (τ := τ) (main (F := Ideal))) ⟨m, fun _ => 0, ρ⟩ (fun r => ∀ c : Dev nD,
      r.2.mem ((c.tc : Thread nD τ).loc main_v102) = W11 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v102 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.KRun

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LinBody.lean ====
/-
  The three linear layers' bodies, read at an entry. Each grid point loads a block of 10000 node rows and the whole
  weight matrix, rounds both to bf16 (the identity at exact arithmetic) and multiplies them into a zero accumulator:
  entry (p, q) of what it stores is the sum over the input features k of x (p, k) · w (k, q).
-/
import proofs.«120870_j60653528154494_1_alg».proof.Proof.Gen.KernelIdeal.Skeleton
import proofs.«120870_j60653528154494_1_alg».proof.Proof.LibDotEntry
import Idealize.ShloMosaic.Lib.Pipeline.Value

noncomputable section

namespace Cert.KernelIdeal.LinBody

open Cert.KernelIdeal Cert.KernelIdeal.Gen Idealize.ShloMosaic Idealize.ShloMosaic.TcCoe Idealize.SL.Sem Idealize.ShloMosaic.ValueIdx

/-- The linear layer's block product at an entry: row p of the loaded node block against column q of the loaded
    weight matrix, summed over the 64 input features. The two roundings to bf16 are the identity at exact
    arithmetic and the accumulator is the zero block. -/
theorem k0_entry (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  refine (Cert.Lib.DotEntry.matmul_zero_ix2 dot_S10000x64_S64x64_S10000x64_1_0_0_1_n_n rfl rfl
    (fun i c => by
      unfold DotDims.lhsIdx
      rw [dif_neg (show ¬(0 : Fin S10000x64.rank) ∈ dot_S10000x64_S64x64_S10000x64_1_0_0_1_n_n.lhsBatch by decide),
        dif_pos (show (0 : Fin S10000x64.rank) ∈ dot_S10000x64_S64x64_S10000x64_1_0_0_1_n_n.lhsNonContracting by decide)]
      rfl)
    (fun i c => dot_S10000x64_S64x64_S10000x64_1_0_0_1_n_n.lhsIdx_val_of_single rfl i c)
    (fun i c => dot_S10000x64_S64x64_S10000x64_1_0_0_1_n_n.rhsIdx_val_of_single rfl i c)
    (fun i c => by
      unfold DotDims.rhsIdx
      rw [dif_neg (show ¬(1 : Fin S64x64.rank) ∈ dot_S10000x64_S64x64_S10000x64_1_0_0_1_n_n.rhsBatch by decide),
        dif_pos (show (1 : Fin S64x64.rank) ∈ dot_S10000x64_S64x64_S10000x64_1_0_0_1_n_n.rhsNonContracting by decide)]
      rfl)
    _ _ p q).trans ?_
  refine Finset.sum_congr rfl fun k _ => ?_
  rw [truncf_apply, truncf_apply, shapeCast_self]

/-- The linear layer's block product at an entry: row p of the loaded node block against column q of the loaded
    weight matrix, summed over the 64 input features. The two roundings to bf16 are the identity at exact
    arithmetic and the accumulator is the zero block. -/
theorem k2_entry (x : Vec Ideal S10000x64 .f32) (w : Vec Ideal S64x64 .f32) (p : Fin 10000) (q : Fin 64) :
    k2_pay1 (F := Ideal) x w (ix2 p q) = ∑ k : Fin 64, x (ix2 p k) * w (ix2 k q) := by
  unfold k2_pay1
  refine (Cert.Lib.DotEntry.matmul_zero_ix2 dot_S10000x64_S64x64_S10000x64_1_0_0_1_n_n rfl rfl
    (fun i c => by
      unfold DotDims.lhsIdx
      rw [dif_neg (show ¬(0 : Fin S10000x64.rank) ∈ dot_S10000x64_S64x64_S10000x64_1_0_0_1_n_n.lhsBatch by decide),
        dif_pos (show (0 : Fin S10000x64.rank) ∈ dot_S10000x64_S64x64_S10000x64_1_0_0_1_n_n.lhsNonContracting by decide)]
      rfl)
    (fun i c => dot_S10000x64_S64x64_S10000x64_1_0_0_1_n_n.lhsIdx_val_of_single rfl i c)
    (fun i c => dot_S10000x64_S64x64_S10000x64_1_0_0_1_n_n.rhsIdx_val_of_single rfl i c)
    (fun i c => by
      unfold DotDims.rhsIdx
      rw [dif_neg (show ¬(1 : Fin S64x64.rank) ∈ dot_S10000x64_S64x64_S10000x64_1_0_0_1_n_n.rhsBatch by decide),
        dif_pos (show (1 : Fin S64x64.rank) ∈ dot_S10000x64_S64x64_S10000x64_1_0_0_1_n_n.rhsNonContracting by decide)]
      rfl)
    _ _ p q).trans ?_
  refine Finset.sum_congr rfl fun k _ => ?_
  rw [truncf_apply, truncf_apply, shapeCast_self]

/-- The linear layer's block product at an entry: row p of the loaded node block against column q of the loaded
    weight matrix, summed over the 64 input features. The two roundings to bf16 are the identity at exact
    arithmetic and the accumulator is the zero block. -/
theorem k4_entry (x : Vec Ideal S10000x64 .f32) (w : Vec Ideal S64x32 .f32) (p : Fin 10000) (q : Fin 32) :
    k4_pay1 (F := Ideal) x w (ix2 p q) = ∑ k : Fin 64, x (ix2 p k) * w (ix2 k q) := by
  unfold k4_pay1
  refine (Cert.Lib.DotEntry.matmul_zero_ix2 dot_S10000x64_S64x32_S10000x32_1_0_0_1_n_n rfl rfl
    (fun i c => by
      unfold DotDims.lhsIdx
      rw [dif_neg (show ¬(0 : Fin S10000x64.rank) ∈ dot_S10000x64_S64x32_S10000x32_1_0_0_1_n_n.lhsBatch by decide),
        dif_pos (show (0 : Fin S10000x64.rank) ∈ dot_S10000x64_S64x32_S10000x32_1_0_0_1_n_n.lhsNonContracting by decide)]
      rfl)
    (fun i c => dot_S10000x64_S64x32_S10000x32_1_0_0_1_n_n.lhsIdx_val_of_single rfl i c)
    (fun i c => dot_S10000x64_S64x32_S10000x32_1_0_0_1_n_n.rhsIdx_val_of_single rfl i c)
    (fun i c => by
      unfold DotDims.rhsIdx
      rw [dif_neg (show ¬(1 : Fin S64x32.rank) ∈ dot_S10000x64_S64x32_S10000x32_1_0_0_1_n_n.rhsBatch by decide),
        dif_pos (show (1 : Fin S64x32.rank) ∈ dot_S10000x64_S64x32_S10000x32_1_0_0_1_n_n.rhsNonContracting by decide)]
      rfl)
    _ _ p q).trans ?_
  refine Finset.sum_congr rfl fun k _ => ?_
  rw [truncf_apply, truncf_apply, shapeCast_self]

end Cert.KernelIdeal.LinBody

end
-- ==== Proof.Spec.lean ====
/-
  The two dense stages of a graph-convolution layer as whole-array functions at exact arithmetic, index by index.
  `dense X W` is the matrix product: entry (r, j) is the sum over the features k of X (r, k) · W (k, j).
  `combine A Y S B` adds to the aggregated neighbour messages A the node's own projected features Y weighted by
  its self-loop weight S (one per node, a column) and the bias B (one per feature, a row), then applies the leaky
  rectifier: z if z > 0 and z / 10 otherwise, the slope being the binary32 value nearest one tenth.
-/
import Idealize.ShloMosaic.PureOps.Ideal
import Idealize.ShloMosaic.Lib.ValueIdx

noncomputable section

namespace Cert.Spec

open Idealize.ShloMosaic Idealize.ShloMosaic.ValueIdx

/-- The matrix product of an m×K by a K×n matrix, entry by entry. -/
def dense {m K n : Nat} (X : (⟨2, ![m, K]⟩ : Shape).Idx → EReal) (W : (⟨2, ![K, n]⟩ : Shape).Idx → EReal) :
    (⟨2, ![m, n]⟩ : Shape).Idx → EReal :=
  fun i => ∑ k : Fin K, X (ix2 ⟨(i 0).val, idx2_lt0 i⟩ k) * W (ix2 k ⟨(i 1).val, idx2_lt1 i⟩)

theorem dense_ix2 {m K n : Nat} (X : (⟨2, ![m, K]⟩ : Shape).Idx → EReal) (W : (⟨2, ![K, n]⟩ : Shape).Idx → EReal)
    (p : Fin m) (q : Fin n) : dense X W (ix2 p q) = ∑ k : Fin K, X (ix2 p k) * W (ix2 k q) := rfl

/-- The leaky rectifier applied to (a + y · s) + b, on one entry. -/
def act (a y s b : EReal) : EReal :=
  Scalar.select
    (FloatOps.cmpf (F := Ideal) (φ := .f32) .ogt
      (FloatOps.addf (F := Ideal) (φ := .f32) (FloatOps.addf (F := Ideal) (φ := .f32) a (FloatOps.mulf (F := Ideal) (φ := .f32) y s)) b)
      (FloatOps.ofBits (F := Ideal) .f32 0x00000000#32))
    (FloatOps.addf (F := Ideal) (φ := .f32) (FloatOps.addf (F := Ideal) (φ := .f32) a (FloatOps.mulf (F := Ideal) (φ := .f32) y s)) b)
    (FloatOps.mulf (F := Ideal) (φ := .f32) (FloatOps.ofBits (F := Ideal) .f32 0x3DCCCCCD#32)
      (FloatOps.addf (F := Ideal) (φ := .f32) (FloatOps.addf (F := Ideal) (φ := .f32) a (FloatOps.mulf (F := Ideal) (φ := .f32) y s)) b))

/-- Self-loop, bias and rectifier over a whole m×n array: S is a column (one weight per row), B a row (one bias
    per column). -/
def combine {m n : Nat} (A Y : (⟨2, ![m, n]⟩ : Shape).Idx → EReal) (S : (⟨2, ![m, 1]⟩ : Shape).Idx → EReal)
    (B : (⟨2, ![1, n]⟩ : Shape).Idx → EReal) : (⟨2, ![m, n]⟩ : Shape).Idx → EReal :=
  fun i => act (A i) (Y i) (S (ix2 ⟨(i 0).val, idx2_lt0 i⟩ ⟨0, Nat.one_pos⟩)) (B (ix2 ⟨0, Nat.one_pos⟩ ⟨(i 1).val, idx2_lt1 i⟩))

theorem combine_ix2 {m n : Nat} (A Y : (⟨2, ![m, n]⟩ : Shape).Idx → EReal) (S : (⟨2, ![m, 1]⟩ : Shape).Idx → EReal)
    (B : (⟨2, ![1, n]⟩ : Shape).Idx → EReal) (p : Fin m) (q : Fin n) :
    combine A Y S B (ix2 p q) = act (A (ix2 p q)) (Y (ix2 p q)) (S (ix2 p ⟨0, Nat.one_pos⟩)) (B (ix2 ⟨0, Nat.one_pos⟩ q)) := rfl

/-- The same with the self-loop weights and the bias given as plain vectors (one weight per row, one bias per column). -/
def combineV {m n : Nat} (A Y : (⟨2, ![m, n]⟩ : Shape).Idx → EReal) (S : (⟨1, ![m]⟩ : Shape).Idx → EReal)
    (B : (⟨1, ![n]⟩ : Shape).Idx → EReal) : (⟨2, ![m, n]⟩ : Shape).Idx → EReal :=
  fun i => act (A i) (Y i) (S (ix1 ⟨(i 0).val, idx2_lt0 i⟩)) (B (ix1 ⟨(i 1).val, idx2_lt1 i⟩))

theorem combineV_ix2 {m n : Nat} (A Y : (⟨2, ![m, n]⟩ : Shape).Idx → EReal) (S : (⟨1, ![m]⟩ : Shape).Idx → EReal)
    (B : (⟨1, ![n]⟩ : Shape).Idx → EReal) (p : Fin m) (q : Fin n) :
    combineV A Y S B (ix2 p q) = act (A (ix2 p q)) (Y (ix2 p q)) (S (ix1 p)) (B (ix1 q)) := rfl

end Cert.Spec

end
-- ==== Proof.LinArr.lean ====
/-
  The three linear layers as whole arrays. Each pallas_call runs ten grid points; point t multiplies rows
  10000·t … 10000·t + 9999 of the node features by the whole weight matrix and writes those rows of the result back.
  The blocks tile the result, so after the call the result array is the matrix product of the two input arrays.
-/
import proofs.«120870_j60653528154494_1_alg».proof.Proof.Gen.KernelIdeal.Frame
import proofs.«120870_j60653528154494_1_alg».proof.Proof.LinBody
import proofs.«120870_j60653528154494_1_alg».proof.Proof.Spec
import Idealize.ShloMosaic.Lib.Pipeline.Value

noncomputable section

namespace Cert.KernelIdeal.LinArr

open Cert.KernelIdeal Cert.KernelIdeal.Gen Cert.KernelIdeal.LinBody Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Linear layer, pallas_call 0: `main_v35 = main_v34 · main_arg4` -/

/-- The printed index maps over the ten grid points: point t stages rows 10000·t … 10000·t + 9999 of the input and
    of the output, and the whole weight matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole arrays. -/
theorem flushed0 (c : Dev nD) (t : Fin cfg0.N) :
    (dat0 V c).flushed 2 t = ((cfg0.win 2).blk t).view.read (Elt Ideal) (dense (V c main_v34) (V c main_arg4)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = dense (V c main_v34) (V c main_arg4) (((cfg0.win 2).blk t).view.emb (ix2 p q))
  refine (k0_entry _ _ p q).trans ?_
  unfold dense
  refine Finset.sum_congr rfl fun k _ => ?_
  have hx : iblk0 V c 0 t (ix2 p k) = V c main_v34 (ix2 ⟨((((cfg0.win 2).blk t).view.emb (ix2 p q)) 0).val, idx2_lt0 _⟩ k) := by
    show V c main_v34 (((cfg0.win 0).blk t).view.emb (ix2 p k)) = _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have hw : iblk0 V c 1 t (ix2 k q) = V c main_arg4 (ix2 k ⟨((((cfg0.win 2).blk t).view.emb (ix2 p q)) 1).val, idx2_lt1 _⟩) := by
    show V c main_arg4 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [hx, hw]

/-- An index of the output array is in point t's block iff its row is one of the block's 10000 rows. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Every row of the output is in the block of the point numbered by its row divided by 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := rfl
  refine ⟨⟨(i 0).val / 10000, by rw [hN]; omega⟩, flush0_2 _, ?_⟩
  obtain ⟨e0, e1, e2, e3, e4, e5⟩ := idx_facts0 ⟨(i 0).val / 10000, by rw [hN]; omega⟩
  rw [mem_blk0]
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 64 ≤ (i 1).val ∧ (i 1).val < win0_2.index _ (1 : Fin 2) * 64 + 64; rw [e5]; omega

/-- After the ten points the output array is the product of the two whole input arrays. -/
theorem arr0 (c : Dev nD) : (dat0 V c).arrAt 2 cfg0.N = dense (V c main_v34) (V c main_arg4) :=
  (dat0 V c).arrAt_eq_of_cover 2 _ (fun t _ => flushed0 V c t) cover0

/-! ## Linear layer, pallas_call 2: `main_v52 = main_v51 · main_arg6` -/

/-- The printed index maps over the ten grid points: point t stages rows 10000·t … 10000·t + 9999 of the input and
    of the output, and the whole weight matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the whole arrays. -/
theorem flushed2 (c : Dev nD) (t : Fin cfg2.N) :
    (dat2 V c).flushed 2 t = ((cfg2.win 2).blk t).view.read (Elt Ideal) (dense (V c main_v51) (V c main_arg6)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = dense (V c main_v51) (V c main_arg6) (((cfg2.win 2).blk t).view.emb (ix2 p q))
  refine (k2_entry _ _ p q).trans ?_
  unfold dense
  refine Finset.sum_congr rfl fun k _ => ?_
  have hx : iblk2 V c 0 t (ix2 p k) = V c main_v51 (ix2 ⟨((((cfg2.win 2).blk t).view.emb (ix2 p q)) 0).val, idx2_lt0 _⟩ k) := by
    show V c main_v51 (((cfg2.win 0).blk t).view.emb (ix2 p k)) = _
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have hw : iblk2 V c 1 t (ix2 k q) = V c main_arg6 (ix2 k ⟨((((cfg2.win 2).blk t).view.emb (ix2 p q)) 1).val, idx2_lt1 _⟩) := by
    show V c main_arg6 (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [hx, hw]

/-- An index of the output array is in point t's block iff its row is one of the block's 10000 rows. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v52).slice (win2_2.rect t)).set ↔ _
  rw [View.set_slice_whole, Rect.mem_set_unit]
  exact Iff.rfl

/-- Every row of the output is in the block of the point numbered by its row divided by 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := rfl
  refine ⟨⟨(i 0).val / 10000, by rw [hN]; omega⟩, flush2_2 _, ?_⟩
  obtain ⟨e0, e1, e2, e3, e4, e5⟩ := idx_facts2 ⟨(i 0).val / 10000, by rw [hN]; omega⟩
  rw [mem_blk2]
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ (i 0).val ∧ (i 0).val < (i 0).val / 10000 * 10000 + 10000; omega
  | ⟨1, _⟩ => show win2_2.index _ (1 : Fin 2) * 64 ≤ (i 1).val ∧ (i 1).val < win2_2.index _ (1 : Fin 2) * 64 + 64; rw [e5]; omega

/-- After the ten points the output array is the product of the two whole input arrays. -/
theorem arr2 (c : Dev nD) : (dat2 V c).arrAt 2 cfg2.N = dense (V c main_v51) (V c main_arg6) :=
  (dat2 V c).arrAt_eq_of_cover 2 _ (fun t _ => flushed2 V c t) cover2

/-! ## Linear layer, pallas_call 4: `main_v69 = main_v68 · main_arg8` -/

/-- The printed index maps over the ten grid points: point t stages rows 10000·t … 10000·t + 9999 of the input and
    of the output, and the whole weight matrix. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the whole arrays. -/
theorem flushed4 (c : Dev nD) (t : Fin cfg4.N) :
    (dat4 V c).flushed 2 t = ((cfg4.win 2).blk t).view.read (Elt Ideal) (dense (V c main_v68) (V c main_arg8)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x32) hz]
  obtain ⟨e0, e1, e2, e3, e4, e5⟩ := idx_facts4 t
  funext j
  obtain ⟨p, q, rfl⟩ : ∃ (p : Fin 10000) (q : Fin 32), j = ix2 p q := ⟨j 0, j 1, eq_ix2 j⟩
  show k4_pay1 (iblk4 V c 0 t) (iblk4 V c 1 t) (ix2 p q)
    = dense (V c main_v68) (V c main_arg8) (((cfg4.win 2).blk t).view.emb (ix2 p q))
  refine (k4_entry _ _ p q).trans ?_
  unfold dense
  refine Finset.sum_congr rfl fun k _ => ?_
  have hx : iblk4 V c 0 t (ix2 p k) = V c main_v68 (ix2 ⟨((((cfg4.win 2).blk t).view.emb (ix2 p q)) 0).val, idx2_lt0 _⟩ k) := by
    show V c main_v68 (((cfg4.win 0).blk t).view.emb (ix2 p k)) = _
    refine congrArg _ (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 64 + 1 * k.val = k.val; omega
  have hw : iblk4 V c 1 t (ix2 k q) = V c main_arg8 (ix2 k ⟨((((cfg4.win 2).blk t).view.emb (ix2 p q)) 1).val, idx2_lt1 _⟩) := by
    show V c main_arg8 (((cfg4.win 1).blk t).view.emb (ix2 k q)) = _
    refine congrArg _ (funext fun a => Fin.ext ?_)
    match a with
    | ⟨0, _⟩ => show win4_1.index t (0 : Fin 2) * 64 + 1 * k.val = k.val; omega
    | ⟨1, _⟩ => show win4_1.index t (1 : Fin 2) * 32 + 1 * q.val = win4_2.index t (1 : Fin 2) * 32 + 1 * q.val; omega
  rw [hx, hw]

/-- An index of the output array is in point t's block iff its row is one of the block's 10000 rows. -/
theorem mem_blk4 (t : Fin cfg4.N) (i : S100000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v69).slice (win4_2.rect t)).set ↔ _
  rw [View.set_slice_whole, Rect.mem_set_unit]
  exact Iff.rfl

/-- Every row of the output is in the block of the point numbered by its row divided by 10000. -/
theorem cover4 (i : S100000x32.Idx) : ∃ t : Fin cfg4.N, (cfg4.win 2).flush t = true ∧ i ∈ ((cfg4.win 2).blk t).view.set := by
  have hi0 : (i 0).val < 100000 := (i 0).isLt
  have hi1 : (i 1).val < 32 := (i 1).isLt
  have hN : cfg4.N = 10 := rfl
  refine ⟨⟨(i 0).val / 10000, by rw [hN]; omega⟩, flush4_2 _, ?_⟩
  obtain ⟨e0, e1, e2, e3, e4, e5⟩ := idx_facts4 ⟨(i 0).val / 10000, by rw [hN]; omega⟩
  rw [mem_blk4]
  intro a
  match a with
  | ⟨0, _⟩ => show win4_2.index _ (0 : Fin 2) * 10000 ≤ (i 0).val ∧ (i 0).val < win4_2.index _ (0 : Fin 2) * 10000 + 10000; rw [e4]; show (i 0).val / 10000 * 10000 ≤ (i 0).val ∧ (i 0).val < (i 0).val / 10000 * 10000 + 10000; omega
  | ⟨1, _⟩ => show win4_2.index _ (1 : Fin 2) * 32 ≤ (i 1).val ∧ (i 1).val < win4_2.index _ (1 : Fin 2) * 32 + 32; rw [e5]; omega

/-- After the ten points the output array is the product of the two whole input arrays. -/
theorem arr4 (c : Dev nD) : (dat4 V c).arrAt 2 cfg4.N = dense (V c main_v68) (V c main_arg8) :=
  (dat4 V c).arrAt_eq_of_cover 2 _ (fun t _ => flushed4 V c t) cover4

end Cert.KernelIdeal.LinArr

end
-- ==== Proof.Comb.lean ====
/-
  The three combine stages, at an entry and as whole arrays. Each runs ten grid points; point t loads rows
  10000·t … 10000·t + 9999 of the aggregated messages, of the node's own projected features and of the self-loop
  weight column, and the whole bias row, forms z = (a + y · s) + b with s repeated across the features and b repeated
  down the rows, and writes back z where z > 0 and one tenth of z elsewhere. The blocks tile the result, so after the
  call the result array is that function of the four whole input arrays, entry by entry.
-/
import proofs.«120870_j60653528154494_1_alg».proof.Proof.Gen.KernelIdeal.Frame
import proofs.«120870_j60653528154494_1_alg».proof.Proof.Spec
import Idealize.ShloMosaic.Lib.Pipeline.Value

noncomputable section

namespace Cert.KernelIdeal.Comb

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two broadcasts at an entry -/

/-- One column repeated across n columns: entry (p, q) of the result is the column's entry in row p. (When the
    column has a single row, that row is row 0, which is p.) -/
theorem broadcastTo_col {α : Type} {m n : ℕ} (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p ⟨0, Nat.one_pos⟩) := by
  refine broadcastTo_apply v h (ix2 p q) (ix2 p ⟨0, Nat.one_pos⟩) fun ax => ?_
  match ax with
  | ⟨0, _⟩ =>
    show p.val = if m = 1 then 0 else p.val
    split
    · have := p.isLt; omega
    · rfl
  | ⟨1, _⟩ => rfl

/-- One row repeated down m rows: entry (p, q) of the result is the row's entry in column q. (When the row has a
    single column, that column is column 0, which is q.) -/
theorem broadcastTo_row {α : Type} {m n : ℕ} (v : (⟨2, ![1, n]⟩ : Shape).Idx → α)
    (h : (⟨2, ![1, n]⟩ : Shape).Broadcasts ⟨2, ![m, n]⟩) (p : Fin m) (q : Fin n) :
    broadcastTo ⟨2, ![m, n]⟩ v h (ix2 p q) = v (ix2 ⟨0, Nat.one_pos⟩ q) := by
  refine broadcastTo_apply v h (ix2 p q) (ix2 ⟨0, Nat.one_pos⟩ q) fun ax => ?_
  match ax with
  | ⟨0, _⟩ => rfl
  | ⟨1, _⟩ =>
    show q.val = if n = 1 then 0 else q.val
    split
    · have := q.isLt; omega
    · rfl

/-! ## The combine stage's block at an entry -/

/-- The combine stage's block at an entry. Everything in it is entrywise except the two broadcasts: the self-loop weights
    are one column, repeated across the 64 features, and the bias is one row, repeated down the 10000 node rows. So
    entry (p, q) is the leaky rectifier of (a (p, q) + y (p, q) · s (p, 0)) + b (0, q): it depends on row p of the
    two feature blocks and of the weight column, and on column q of the bias row, and on nothing else. -/
theorem k1_entry (a y : Vec Ideal S10000x64 .f32) (s : Vec Ideal S10000x1 .f32) (b : Vec Ideal S1x64 .f32) (p : Fin 10000) (q : Fin 64) :
    k1_pay1 (F := Ideal) a y s b (ix2 p q) = Cert.Spec.act (a (ix2 p q)) (y (ix2 p q)) (s (ix2 p ⟨0, Nat.one_pos⟩)) (b (ix2 ⟨0, Nat.one_pos⟩ q)) := by
  unfold k1_pay1
  have hs : broadcastTo S10000x64 s broadcasts_S10000x1_S10000x64 (ix2 p q) = s (ix2 p ⟨0, Nat.one_pos⟩) :=
    broadcastTo_col s _ p q
  have hb : broadcastTo S10000x64 b broadcasts_S1x64_S10000x64 (ix2 p q) = b (ix2 ⟨0, Nat.one_pos⟩ q) :=
    broadcastTo_row b _ p q
  show Cert.Spec.act (shapeCast S10000x64 a _ (ix2 p q)) (shapeCast S10000x64 y _ (ix2 p q))
      (broadcastTo S10000x64 (shapeCast S10000x1 s _) _ (ix2 p q)) (broadcastTo S10000x64 (shapeCast S1x64 b _) _ (ix2 p q)) = _
  simp only [shapeCast_self]
  rw [hs, hb]

/-- The combine stage's block at an entry. Everything in it is entrywise except the two broadcasts: the self-loop weights
    are one column, repeated across the 64 features, and the bias is one row, repeated down the 10000 node rows. So
    entry (p, q) is the leaky rectifier of (a (p, q) + y (p, q) · s (p, 0)) + b (0, q): it depends on row p of the
    two feature blocks and of the weight column, and on column q of the bias row, and on nothing else. -/
theorem k3_entry (a y : Vec Ideal S10000x64 .f32) (s : Vec Ideal S10000x1 .f32) (b : Vec Ideal S1x64 .f32) (p : Fin 10000) (q : Fin 64) :
    k3_pay1 (F := Ideal) a y s b (ix2 p q) = Cert.Spec.act (a (ix2 p q)) (y (ix2 p q)) (s (ix2 p ⟨0, Nat.one_pos⟩)) (b (ix2 ⟨0, Nat.one_pos⟩ q)) := by
  unfold k3_pay1
  have hs : broadcastTo S10000x64 s broadcasts_S10000x1_S10000x64 (ix2 p q) = s (ix2 p ⟨0, Nat.one_pos⟩) :=
    broadcastTo_col s _ p q
  have hb : broadcastTo S10000x64 b broadcasts_S1x64_S10000x64 (ix2 p q) = b (ix2 ⟨0, Nat.one_pos⟩ q) :=
    broadcastTo_row b _ p q
  show Cert.Spec.act (shapeCast S10000x64 a _ (ix2 p q)) (shapeCast S10000x64 y _ (ix2 p q))
      (broadcastTo S10000x64 (shapeCast S10000x1 s _) _ (ix2 p q)) (broadcastTo S10000x64 (shapeCast S1x64 b _) _ (ix2 p q)) = _
  simp only [shapeCast_self]
  rw [hs, hb]

/-- The combine stage's block at an entry. Everything in it is entrywise except the two broadcasts: the self-loop weights
    are one column, repeated across the 32 features, and the bias is one row, repeated down the 10000 node rows. So
    entry (p, q) is the leaky rectifier of (a (p, q) + y (p, q) · s (p, 0)) + b (0, q): it depends on row p of the
    two feature blocks and of the weight column, and on column q of the bias row, and on nothing else. -/
theorem k5_entry (a y : Vec Ideal S10000x32 .f32) (s : Vec Ideal S10000x1 .f32) (b : Vec Ideal S1x32 .f32) (p : Fin 10000) (q : Fin 32) :
    k5_pay1 (F := Ideal) a y s b (ix2 p q) = Cert.Spec.act (a (ix2 p q)) (y (ix2 p q)) (s (ix2 p ⟨0, Nat.one_pos⟩)) (b (ix2 ⟨0, Nat.one_pos⟩ q)) := by
  unfold k5_pay1
  have hs : broadcastTo S10000x32 s broadcasts_S10000x1_S10000x32 (ix2 p q) = s (ix2 p ⟨0, Nat.one_pos⟩) :=
    broadcastTo_col s _ p q
  have hb : broadcastTo S10000x32 b broadcasts_S1x32_S10000x32 (ix2 p q) = b (ix2 ⟨0, Nat.one_pos⟩ q) :=
    broadcastTo_row b _ p q
  show Cert.Spec.act (shapeCast S10000x32 a _ (ix2 p q)) (shapeCast S10000x32 y _ (ix2 p q))
      (broadcastTo S10000x32 (shapeCast S10000x1 s _) _ (ix2 p q)) (broadcastTo S10000x32 (shapeCast S1x32 b _) _ (ix2 p q)) = _
  simp only [shapeCast_self]
  rw [hs, hb]

/-! ## Combine stage, call 1: `main_v51 = act ((main_v48 + main_v35 · main_v49) + main_v50)` -/

/-- The printed index maps over the ten grid points: point t stages rows 10000·t … 10000·t + 9999 of the two feature
    arrays, of the self-loop weight column and of the output, and the whole bias row. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the combine of the whole arrays: entry (p, q) of the block is entry
    (10000·t + p, q) of the array, which reads row 10000·t + p of the features and of the weight column and column q
    of the bias row, and those are exactly entries p and q of the blocks the point loaded. -/
theorem flushed1 (c : Dev nD) (t : Fin cfg1.N) :
    (dat1 V c).flushed 4 t = ((cfg1.win 4).blk t).view.read (Elt Ideal)
      (Cert.Spec.combine (V c main_v48) (V c main_v35) (V c main_v49) (V c main_v50)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts1 t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (ix2 p q)
    = Cert.Spec.combine (V c main_v48) (V c main_v35) (V c main_v49) (V c main_v50) (((cfg1.win 4).blk t).view.emb (ix2 p q))
  refine (k1_entry _ _ _ _ p q).trans ?_
  have h0 : iblk1 V c 0 t (ix2 p q) = V c main_v48 (((cfg1.win 4).blk t).view.emb (ix2 p q)) := by
    show V c main_v48 (((cfg1.win 0).blk t).view.emb (ix2 p q)) = _
    refine congrArg _ (funext fun a => Fin.ext ?_)
    match a with
    | ⟨0, _⟩ => show win1_0.index t (0 : Fin 2) * 10000 + 1 * p.val = win1_4.index t (0 : Fin 2) * 10000 + 1 * p.val; omega
    | ⟨1, _⟩ => show win1_0.index t (1 : Fin 2) * 64 + 1 * q.val = win1_4.index t (1 : Fin 2) * 64 + 1 * q.val; omega
  have h1 : iblk1 V c 1 t (ix2 p q) = V c main_v35 (((cfg1.win 4).blk t).view.emb (ix2 p q)) := by
    show V c main_v35 (((cfg1.win 1).blk t).view.emb (ix2 p q)) = _
    refine congrArg _ (funext fun a => Fin.ext ?_)
    match a with
    | ⟨0, _⟩ => show win1_1.index t (0 : Fin 2) * 10000 + 1 * p.val = win1_4.index t (0 : Fin 2) * 10000 + 1 * p.val; omega
    | ⟨1, _⟩ => show win1_1.index t (1 : Fin 2) * 64 + 1 * q.val = win1_4.index t (1 : Fin 2) * 64 + 1 * q.val; omega
  have h2 : iblk1 V c 2 t (ix2 p ⟨0, Nat.one_pos⟩)
      = V c main_v49 (ix2 ⟨((((cfg1.win 4).blk t).view.emb (ix2 p q)) 0).val, idx2_lt0 _⟩ ⟨0, Nat.one_pos⟩) := by
    show V c main_v49 (((cfg1.win 2).blk t).view.emb (ix2 p ⟨0, Nat.one_pos⟩)) = _
    refine congrArg _ (funext fun a => Fin.ext ?_)
    match a with
    | ⟨0, _⟩ => show win1_2.index t (0 : Fin 2) * 10000 + 1 * p.val = win1_4.index t (0 : Fin 2) * 10000 + 1 * p.val; omega
    | ⟨1, _⟩ => show win1_2.index t (1 : Fin 2) * 1 + 1 * 0 = 0; omega
  have h3 : iblk1 V c 3 t (ix2 ⟨0, Nat.one_pos⟩ q)
      = V c main_v50 (ix2 ⟨0, Nat.one_pos⟩ ⟨((((cfg1.win 4).blk t).view.emb (ix2 p q)) 1).val, idx2_lt1 _⟩) := by
    show V c main_v50 (((cfg1.win 3).blk t).view.emb (ix2 ⟨0, Nat.one_pos⟩ q)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  rw [h0, h1, h2, h3]
  rfl

/-- An index of the output array is in point t's block iff its row is one of the block's 10000 rows. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v51).slice (win1_4.rect t)).set ↔ _
  rw [View.set_slice_whole, Rect.mem_set_unit]
  exact Iff.rfl

/-- Every row of the output is in the block of the point numbered by its row divided by 10000. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := rfl
  refine ⟨⟨(i 0).val / 10000, by rw [hN]; omega⟩, flush1_4 _, ?_⟩
  obtain ⟨e0, e1, e2, e3, e4, e5, e6, e7, e8, e9⟩ := idx_facts1 ⟨(i 0).val / 10000, by rw [hN]; omega⟩
  rw [mem_blk1]
  intro a
  match a with
  | ⟨0, _⟩ => show win1_4.index _ (0 : Fin 2) * 10000 ≤ (i 0).val ∧ (i 0).val < win1_4.index _ (0 : Fin 2) * 10000 + 10000; rw [e8]; show (i 0).val / 10000 * 10000 ≤ (i 0).val ∧ (i 0).val < (i 0).val / 10000 * 10000 + 10000; omega
  | ⟨1, _⟩ => show win1_4.index _ (1 : Fin 2) * 64 ≤ (i 1).val ∧ (i 1).val < win1_4.index _ (1 : Fin 2) * 64 + 64; rw [e9]; omega

/-- After the ten points the output array is the combine of the four whole input arrays: the ten blocks of 10000 rows
    tile its 100000 rows, and each was written with the combine's own values. -/
theorem arr1 (c : Dev nD) : (dat1 V c).arrAt 4 cfg1.N = Cert.Spec.combine (V c main_v48) (V c main_v35) (V c main_v49) (V c main_v50) :=
  (dat1 V c).arrAt_eq_of_cover 4 _ (fun t _ => flushed1 V c t) cover1

/-! ## Combine stage, call 3: `main_v68 = act ((main_v65 + main_v52 · main_v66) + main_v67)` -/

/-- The printed index maps over the ten grid points: point t stages rows 10000·t … 10000·t + 9999 of the two feature
    arrays, of the self-loop weight column and of the output, and the whole bias row. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the combine of the whole arrays: entry (p, q) of the block is entry
    (10000·t + p, q) of the array, which reads row 10000·t + p of the features and of the weight column and column q
    of the bias row, and those are exactly entries p and q of the blocks the point loaded. -/
theorem flushed3 (c : Dev nD) (t : Fin cfg3.N) :
    (dat3 V c).flushed 4 t = ((cfg3.win 4).blk t).view.read (Elt Ideal)
      (Cert.Spec.combine (V c main_v65) (V c main_v52) (V c main_v66) (V c main_v67)) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts3 t
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (iblk3 V c 3 t) (ix2 p q)
    = Cert.Spec.combine (V c main_v65) (V c main_v52) (V c main_v66) (V c main_v67) (((cfg3.win 4).blk t).view.emb (ix2 p q))
  refine (k3_entry _ _ _ _ p q).trans ?_
  have h0 : iblk3 V c 0 t (ix2 p q) = V c main_v65 (((cfg3.win 4).blk t).view.emb (ix2 p q)) := by
    show V c main_v65 (((cfg3.win 0).blk t).view.emb (ix2 p q)) = _
    refine congrArg _ (funext fun a => Fin.ext ?_)
    match a with
    | ⟨0, _⟩ => show win3_0.index t (0 : Fin 2) * 10000 + 1 * p.val = win3_4.index t (0 : Fin 2) * 10000 + 1 * p.val; omega
    | ⟨1, _⟩ => show win3_0.index t (1 : Fin 2) * 64 + 1 * q.val = win3_4.index t (1 : Fin 2) * 64 + 1 * q.val; omega
  have h1 : iblk3 V c 1 t (ix2 p q) = V c main_v52 (((cfg3.win 4).blk t).view.emb (ix2 p q)) := by
    show V c main_v52 (((cfg3.win 1).blk t).view.emb (ix2 p q)) = _
    refine congrArg _ (funext fun a => Fin.ext ?_)
    match a with
    | ⟨0, _⟩ => show win3_1.index t (0 : Fin 2) * 10000 + 1 * p.val = win3_4.index t (0 : Fin 2) * 10000 + 1 * p.val; omega
    | ⟨1, _⟩ => show win3_1.index t (1 : Fin 2) * 64 + 1 * q.val = win3_4.index t (1 : Fin 2) * 64 + 1 * q.val; omega
  have h2 : iblk3 V c 2 t (ix2 p ⟨0, Nat.one_pos⟩)
      = V c main_v66 (ix2 ⟨((((cfg3.win 4).blk t).view.emb (ix2 p q)) 0).val, idx2_lt0 _⟩ ⟨0, Nat.one_pos⟩) := by
    show V c main_v66 (((cfg3.win 2).blk t).view.emb (ix2 p ⟨0, Nat.one_pos⟩)) = _
    refine congrArg _ (funext fun a => Fin.ext ?_)
    match a with
    | ⟨0, _⟩ => show win3_2.index t (0 : Fin 2) * 10000 + 1 * p.val = win3_4.index t (0 : Fin 2) * 10000 + 1 * p.val; omega
    | ⟨1, _⟩ => show win3_2.index t (1 : Fin 2) * 1 + 1 * 0 = 0; omega
  have h3 : iblk3 V c 3 t (ix2 ⟨0, Nat.one_pos⟩ q)
      = V c main_v67 (ix2 ⟨0, Nat.one_pos⟩ ⟨((((cfg3.win 4).blk t).view.emb (ix2 p q)) 1).val, idx2_lt1 _⟩) := by
    show V c main_v67 (((cfg3.win 3).blk t).view.emb (ix2 ⟨0, Nat.one_pos⟩ q)) = _
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  rw [h0, h1, h2, h3]
  rfl

/-- An index of the output array is in point t's block iff its row is one of the block's 10000 rows. -/
theorem mem_blk3 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v68).slice (win3_4.rect t)).set ↔ _
  rw [View.set_slice_whole, Rect.mem_set_unit]
  exact Iff.rfl

/-- Every row of the output is in the block of the point numbered by its row divided by 10000. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := rfl
  refine ⟨⟨(i 0).val / 10000, by rw [hN]; omega⟩, flush3_4 _, ?_⟩
  obtain ⟨e0, e1, e2, e3, e4, e5, e6, e7, e8, e9⟩ := idx_facts3 ⟨(i 0).val / 10000, by rw [hN]; omega⟩
  rw [mem_blk3]
  intro a
  match a with
  | ⟨0, _⟩ => show win3_4.index _ (0 : Fin 2) * 10000 ≤ (i 0).val ∧ (i 0).val < win3_4.index _ (0 : Fin 2) * 10000 + 10000; rw [e8]; show (i 0).val / 10000 * 10000 ≤ (i 0).val ∧ (i 0).val < (i 0).val / 10000 * 10000 + 10000; omega
  | ⟨1, _⟩ => show win3_4.index _ (1 : Fin 2) * 64 ≤ (i 1).val ∧ (i 1).val < win3_4.index _ (1 : Fin 2) * 64 + 64; rw [e9]; omega

/-- After the ten points the output array is the combine of the four whole input arrays: the ten blocks of 10000 rows
    tile its 100000 rows, and each was written with the combine's own values. -/
theorem arr3 (c : Dev nD) : (dat3 V c).arrAt 4 cfg3.N = Cert.Spec.combine (V c main_v65) (V c main_v52) (V c main_v66) (V c main_v67) :=
  (dat3 V c).arrAt_eq_of_cover 4 _ (fun t _ => flushed3 V c t) cover3

/-! ## Combine stage, call 5: `main_v85 = act ((main_v82 + main_v69 · main_v83) + main_v84)` -/

/-- The printed index maps over the ten grid points: point t stages rows 10000·t … 10000·t + 9999 of the two feature
    arrays, of the self-loop weight column and of the output, and the whole bias row. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point t writes back is block t of the combine of the whole arrays: entry (p, q) of the block is entry
    (10000·t + p, q) of the array, which reads row 10000·t + p of the features and of the weight column and column q
    of the bias row, and those are exactly entries p and q of the blocks the point loaded. -/
theorem flushed5 (c : Dev nD) (t : Fin cfg5.N) :
    (dat5 V c).flushed 4 t = ((cfg5.win 4).blk t).view.read (Elt Ideal)
      (Cert.Spec.combine (V c main_v82) (V c main_v69) (V c main_v83) (V c main_v84)) := by
  show (cfg5.win 4).cut (grid5.coords t) ((dat5 V c).after 4 t) = _
  rw [after5_4]
  unfold out5_4
  rw [View.canon_unit_zero hz]
  simp only [View.ld_unit_zero (S := S10000x32) hz, View.ld_unit_zero (S := S10000x1) hz, View.ld_unit_zero (S := S1x32) hz]
  obtain ⟨e0, e1, e2, e3, e4, e5, e6, e7, e8, e9⟩ := idx_facts5 t
  funext j
  obtain ⟨p, q, rfl⟩ : ∃ (p : Fin 10000) (q : Fin 32), j = ix2 p q := ⟨j 0, j 1, eq_ix2 j⟩
  show k5_pay1 (iblk5 V c 0 t) (iblk5 V c 1 t) (iblk5 V c 2 t) (iblk5 V c 3 t) (ix2 p q)
    = Cert.Spec.combine (V c main_v82) (V c main_v69) (V c main_v83) (V c main_v84) (((cfg5.win 4).blk t).view.emb (ix2 p q))
  refine (k5_entry _ _ _ _ p q).trans ?_
  have h0 : iblk5 V c 0 t (ix2 p q) = V c main_v82 (((cfg5.win 4).blk t).view.emb (ix2 p q)) := by
    show V c main_v82 (((cfg5.win 0).blk t).view.emb (ix2 p q)) = _
    refine congrArg _ (funext fun a => Fin.ext ?_)
    match a with
    | ⟨0, _⟩ => show win5_0.index t (0 : Fin 2) * 10000 + 1 * p.val = win5_4.index t (0 : Fin 2) * 10000 + 1 * p.val; omega
    | ⟨1, _⟩ => show win5_0.index t (1 : Fin 2) * 32 + 1 * q.val = win5_4.index t (1 : Fin 2) * 32 + 1 * q.val; omega
  have h1 : iblk5 V c 1 t (ix2 p q) = V c main_v69 (((cfg5.win 4).blk t).view.emb (ix2 p q)) := by
    show V c main_v69 (((cfg5.win 1).blk t).view.emb (ix2 p q)) = _
    refine congrArg _ (funext fun a => Fin.ext ?_)
    match a with
    | ⟨0, _⟩ => show win5_1.index t (0 : Fin 2) * 10000 + 1 * p.val = win5_4.index t (0 : Fin 2) * 10000 + 1 * p.val; omega
    | ⟨1, _⟩ => show win5_1.index t (1 : Fin 2) * 32 + 1 * q.val = win5_4.index t (1 : Fin 2) * 32 + 1 * q.val; omega
  have h2 : iblk5 V c 2 t (ix2 p ⟨0, Nat.one_pos⟩)
      = V c main_v83 (ix2 ⟨((((cfg5.win 4).blk t).view.emb (ix2 p q)) 0).val, idx2_lt0 _⟩ ⟨0, Nat.one_pos⟩) := by
    show V c main_v83 (((cfg5.win 2).blk t).view.emb (ix2 p ⟨0, Nat.one_pos⟩)) = _
    refine congrArg _ (funext fun a => Fin.ext ?_)
    match a with
    | ⟨0, _⟩ => show win5_2.index t (0 : Fin 2) * 10000 + 1 * p.val = win5_4.index t (0 : Fin 2) * 10000 + 1 * p.val; omega
    | ⟨1, _⟩ => show win5_2.index t (1 : Fin 2) * 1 + 1 * 0 = 0; omega
  have h3 : iblk5 V c 3 t (ix2 ⟨0, Nat.one_pos⟩ q)
      = V c main_v84 (ix2 ⟨0, Nat.one_pos⟩ ⟨((((cfg5.win 4).blk t).view.emb (ix2 p q)) 1).val, idx2_lt1 _⟩) := by
    show V c main_v84 (((cfg5.win 3).blk t).view.emb (ix2 ⟨0, Nat.one_pos⟩ q)) = _
    refine congrArg _ (funext fun a => Fin.ext ?_)
    match a with
    | ⟨0, _⟩ => show win5_3.index t (0 : Fin 2) * 1 + 1 * 0 = 0; omega
    | ⟨1, _⟩ => show win5_3.index t (1 : Fin 2) * 32 + 1 * q.val = win5_4.index t (1 : Fin 2) * 32 + 1 * q.val; omega
  rw [h0, h1, h2, h3]
  rfl

/-- An index of the output array is in point t's block iff its row is one of the block's 10000 rows. -/
theorem mem_blk5 (t : Fin cfg5.N) (i : S100000x32.Idx) :
    i ∈ ((cfg5.win 4).blk t).view.set ↔ ∀ a : Fin 2, win5_4.index t a * S10000x32.size a ≤ (i a).val ∧ (i a).val < win5_4.index t a * S10000x32.size a + S10000x32.size a := by
  show i ∈ ((View.whole main_v85).slice (win5_4.rect t)).set ↔ _
  rw [View.set_slice_whole, Rect.mem_set_unit]
  exact Iff.rfl

/-- Every row of the output is in the block of the point numbered by its row divided by 10000. -/
theorem cover5 (i : S100000x32.Idx) : ∃ t : Fin cfg5.N, (cfg5.win 4).flush t = true ∧ i ∈ ((cfg5.win 4).blk t).view.set := by
  have hi0 : (i 0).val < 100000 := (i 0).isLt
  have hi1 : (i 1).val < 32 := (i 1).isLt
  have hN : cfg5.N = 10 := rfl
  refine ⟨⟨(i 0).val / 10000, by rw [hN]; omega⟩, flush5_4 _, ?_⟩
  obtain ⟨e0, e1, e2, e3, e4, e5, e6, e7, e8, e9⟩ := idx_facts5 ⟨(i 0).val / 10000, by rw [hN]; omega⟩
  rw [mem_blk5]
  intro a
  match a with
  | ⟨0, _⟩ => show win5_4.index _ (0 : Fin 2) * 10000 ≤ (i 0).val ∧ (i 0).val < win5_4.index _ (0 : Fin 2) * 10000 + 10000; rw [e8]; show (i 0).val / 10000 * 10000 ≤ (i 0).val ∧ (i 0).val < (i 0).val / 10000 * 10000 + 10000; omega
  | ⟨1, _⟩ => show win5_4.index _ (1 : Fin 2) * 32 ≤ (i 1).val ∧ (i 1).val < win5_4.index _ (1 : Fin 2) * 32 + 32; rw [e9]; omega

/-- After the ten points the output array is the combine of the four whole input arrays: the ten blocks of 10000 rows
    tile its 100000 rows, and each was written with the combine's own values. -/
theorem arr5 (c : Dev nD) : (dat5 V c).arrAt 4 cfg5.N = Cert.Spec.combine (V c main_v82) (V c main_v69) (V c main_v83) (V c main_v84) :=
  (dat5 V c).arrAt_eq_of_cover 4 _ (fun t _ => flushed5 V c t) cover5

end Cert.KernelIdeal.Comb

end
-- ==== Proof.KStage.lean ====
/-
  The network's stages as pure functions of arrays, at exact arithmetic, spelt with the dimension records of the
  idealized kernel program: the edge list's two rows, the normalisation weights, the embedding lookup, the neighbour
  aggregation (gather the sources' rows, weight them, sum them into the destinations' rows), one layer
  (projection, aggregation, self-loop, bias, leaky rectifier), and the pooling and final linear map.
-/
import proofs.«120870_j60653528154494_1_alg».proof.Proof.Gen.KernelIdeal
import proofs.«120870_j60653528154494_1_alg».proof.Proof.Spec

noncomputable section

namespace Cert.KernelIdeal.Stage

open Cert.KernelIdeal Cert.KernelIdeal.Facts₀ Idealize.ShloMosaic Idealize.ShloMosaic.TcCoe Idealize.SL.Sem Idealize.ShloMosaic.StableHlo

/-- Row 0 of the 2×E edge list: the source node of every edge. -/
def srcOf (e : (IVec S2x3200000 32)) : (IVec S3200000 32) :=
  shapeCast S3200000 (extractStridedSlice S1x3200000 ![0, 0] e slices_S2x3200000_S1x3200000_0_0) shapeCasts_S1x3200000_S3200000

/-- Row 1 of the edge list: the destination node of every edge. -/
def dstOf (e : (IVec S2x3200000 32)) : (IVec S3200000 32) :=
  shapeCast S3200000 (extractStridedSlice S1x3200000 ![1, 0] e slices_S2x3200000_S1x3200000_1_0) shapeCasts_S1x3200000_S3200000

/-- Node numbers as an index column: a negative number counts from the end (i < 0 becomes i + 100000). -/
def wrapCol (i : (IVec S3200000 32)) : (IVec S3200000x1 32) :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- deg^(-1/2) per node, deg = 1 (the self-loop) + the number of edges ending at the node. -/
def dinvOf (d : (IVec S3200000 32)) : (FVec Ideal S100000 .f32) :=
  Host.rsqrt (F := Ideal) (addf
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 d)
      (broadcastInDim S3200000 ![] bcast_S_S3200000 (constant (F := Ideal) S_ .f32 0x3F800000#32)))
    (broadcastInDim S100000 ![] bcast_S_S100000 (constant (F := Ideal) S_ .f32 0x3F800000#32)))

/-- The weight of every edge: deg^(-1/2) of its source times deg^(-1/2) of its destination. -/
def normOf (s d : (IVec S3200000 32)) : (FVec Ideal S3200000 .f32) :=
  mulf (Host.gather gather_S100000_S3200000x1_S3200000_n_0_n_n_0_1_1 (dinvOf d) (wrapCol s))
    (Host.gather gather_S100000_S3200000x1_S3200000_n_0_n_n_0_1_1 (dinvOf d) (wrapCol d))

/-- The weight of every node's self-loop: 1 / deg. -/
def selfwOf (d : (IVec S3200000 32)) : (FVec Ideal S100000 .f32) := mulf (dinvOf d) (dinvOf d)

/-- The embedding rows of the nodes' feature numbers (a negative number counts from the end of the table). -/
def embOf (f : (IVec S100000x1 32)) (emb : (FVec Ideal S10000x64 .f32)) : (FVec Ideal S100000x64 .f32) :=
  Host.gather gather_S10000x64_S100000x1_S100000x64_1_0_n_n_0_1_164 emb
    (broadcastInDim S100000x1 ![0] bcast_S100000_S100000x1_0
      (select (cmpi .slt (shapeCast S100000 f shapeCasts_S100000x1_S100000) (broadcastInDim S100000 ![] bcast_S_S100000 (constantI S_ 32 0#32)))
        (addi (shapeCast S100000 f shapeCasts_S100000x1_S100000) (broadcastInDim S100000 ![] bcast_S_S100000 (constantI S_ 32 10000#32)))
        (shapeCast S100000 f shapeCasts_S100000x1_S100000)))

/-- Neighbour aggregation over 64 features: row r of the result is the sum, over the edges e ending at r, of
    row src(e) of y times the edge's weight. -/
def agg64 (y : (FVec Ideal S100000x64 .f32)) (s d : (IVec S3200000 32)) (nrm : (FVec Ideal S3200000 .f32)) : (FVec Ideal S100000x64 .f32) :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 d)
    (mulf (Host.gather gather_S100000x64_S3200000x1_S3200000x64_1_0_n_n_0_1_164 y (wrapCol s))
      (broadcastInDim S3200000x64 ![0, 1] bcast_S3200000x1_S3200000x64_0_1
        (broadcastInDim S3200000x1 ![0] bcast_S3200000_S3200000x1_0 nrm)))

/-- Neighbour aggregation over 32 features. -/
def agg32 (y : (FVec Ideal S100000x32 .f32)) (s d : (IVec S3200000 32)) (nrm : (FVec Ideal S3200000 .f32)) : (FVec Ideal S100000x32 .f32) :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 d)
    (mulf (Host.gather gather_S100000x32_S3200000x1_S3200000x32_1_0_n_n_0_1_132 y (wrapCol s))
      (broadcastInDim S3200000x32 ![0, 1] bcast_S3200000x1_S3200000x32_0_1
        (broadcastInDim S3200000x1 ![0] bcast_S3200000_S3200000x1_0 nrm)))

/-- Mean pooling over the graphs and the final linear map: per graph, the sum of its nodes' rows divided by
    max(number of its nodes, 1), times the 32×1 weight, plus the bias. -/
def tailOf (x : (FVec Ideal S100000x32 .f32)) (bt : (IVec S100000 32)) (fw : (FVec Ideal S32x1 .f32)) (fb : (FVec Ideal S1 .f32)) : (FVec Ideal S1024 .f32) :=
  shapeCast S1024 (addf
    (Host.dotGeneral (F := Ideal) dot_S1024x32_S32x1_S1024x1_1_0_0_1_n_n none
      (Host.divf (F := Ideal)
        (Host.scatterAdd (F := Ideal) scatter_S1024x32_S100000x1_S100000x32_1_0_0_1
          (broadcastInDim S1024x32 ![] bcast_S_S1024x32 (constant (F := Ideal) S_ .f32 0x00000000#32))
          (broadcastInDim S100000x1 ![0] bcast_S100000_S100000x1_0 bt) x)
        (broadcastInDim S1024x32 ![0, 1] bcast_S1024x1_S1024x32_0_1 (broadcastInDim S1024x1 ![0] bcast_S1024_S1024x1_0
          (maximumf
            (Host.scatterAdd (F := Ideal) scatter_S1024_S100000x1_S100000_n_0_0_1
              (broadcastInDim S1024 ![] bcast_S_S1024 (constant (F := Ideal) S_ .f32 0x00000000#32))
              (broadcastInDim S100000x1 ![0] bcast_S100000_S100000x1_0 bt)
              (broadcastInDim S100000 ![] bcast_S_S100000 (constant (F := Ideal) S_ .f32 0x3F800000#32)))
            (broadcastInDim S1024 ![] bcast_S_S1024 (constant (F := Ideal) S_ .f32 0x3F800000#32))))))
      fw)
    (broadcastInDim S1024x1 ![0, 1] bcast_S1x1_S1024x1_0_1 (broadcastInDim S1x1 ![1] bcast_S1_S1x1_1 fb)))
    shapeCasts_S1024x1_S1024

/-- One graph-convolution layer on 64 output features: project, aggregate over the neighbours, add the node's own
    projection weighted by its self-loop weight and the bias, apply the leaky rectifier. -/
def layer64 (x : (FVec Ideal S100000x64 .f32)) (W : (FVec Ideal S64x64 .f32)) (s d : (IVec S3200000 32)) (nrm : (FVec Ideal S3200000 .f32))
    (sw : (FVec Ideal S100000 .f32)) (b : (FVec Ideal S64 .f32)) : (FVec Ideal S100000x64 .f32) :=
  Cert.Spec.combineV (agg64 (Cert.Spec.dense x W) s d nrm) (Cert.Spec.dense x W) sw b

/-- The last layer: 64 input features, 32 output features. -/
def layer32 (x : (FVec Ideal S100000x64 .f32)) (W : (FVec Ideal S64x32 .f32)) (s d : (IVec S3200000 32)) (nrm : (FVec Ideal S3200000 .f32))
    (sw : (FVec Ideal S100000 .f32)) (b : (FVec Ideal S32 .f32)) : (FVec Ideal S100000x32 .f32) :=
  Cert.Spec.combineV (agg32 (Cert.Spec.dense x W) s d nrm) (Cert.Spec.dense x W) sw b

/-- The whole network as one function of the twelve argument arrays. -/
def final (a0 : (IVec S2x3200000 32)) (a1 : (IVec S100000x1 32)) (a2 : (IVec S100000 32)) (a3 : (FVec Ideal S10000x64 .f32))
    (a4 : (FVec Ideal S64x64 .f32)) (a5 : (FVec Ideal S64 .f32)) (a6 : (FVec Ideal S64x64 .f32)) (a7 : (FVec Ideal S64 .f32)) (a8 : (FVec Ideal S64x32 .f32))
    (a9 : (FVec Ideal S32 .f32)) (a10 : (FVec Ideal S32x1 .f32)) (a11 : (FVec Ideal S1 .f32)) : (FVec Ideal S1024 .f32) :=
  tailOf
    (layer32
      (layer64
        (layer64 (embOf a1 a3) a4 (srcOf a0) (dstOf a0) (normOf (srcOf a0) (dstOf a0)) (selfwOf (dstOf a0)) a5)
        a6 (srcOf a0) (dstOf a0) (normOf (srcOf a0) (dstOf a0)) (selfwOf (dstOf a0)) a7)
      a8 (srcOf a0) (dstOf a0) (normOf (srcOf a0) (dstOf a0)) (selfwOf (dstOf a0)) a9)
    a2 a10 a11

end Cert.KernelIdeal.Stage

end
-- ==== Proof.KCarry.lean ====
/-
  Which arrays the idealized kernel's program leaves alone. Between the first host stretch and the last, the program
  alternates host stretches and pallas_calls; a host stretch writes only the values it defines and a pallas_call only
  its output array. So the two rows of the edge list, the edge weights, the self-loop weights and the argument arrays
  hold, at every later boundary, what they held after the first host stretch (the arguments: what they held at launch).
-/
import proofs.«120870_j60653528154494_1_alg».proof.Proof.Gen.KernelIdeal.Frame
import Idealize.ShloMosaic.Lib.StableHlo.Run
import Idealize.ShloMosaic.PureOps.Ideal

noncomputable section

namespace Cert.KernelIdeal.KCarry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of a literal host stretch writes the buffer: each operation writes exactly its result buffer, and
    that is another buffer. -/
local macro "not_written" : tactic => `(tactic| (
  refine List.forall_iff_forall_mem.mp ?_
  simp only [hostOps0, hostOps1, hostOps3, hostOps5, hostOps6, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- Through the first layer: a buffer the second host stretch does not write, and that is no array of the first two
    pallas_calls, holds what it held after the first host stretch. -/
theorem keepA (b : Ref sig .tc)
    (h1 : ∀ op ∈ (hostOps1 : List (HloOp τ sig (Elt Ideal))), (Proc.devRef .tc b : DevRef τ sig) ∉ op.writes)
    (r0 : ∀ w, Pipeline.arrRef spec0 w ≠ b) (r1 : ∀ w, Pipeline.arrRef spec1 w ≠ b) :
    W2 m ρ c (Proc.devRef .tc b) = W1 m ρ c (Proc.devRef .tc b) ∧ W3 m ρ c (Proc.devRef .tc b) = W1 m ρ c (Proc.devRef .tc b) ∧ W4 m ρ c (Proc.devRef .tc b) = W1 m ρ c (Proc.devRef .tc b) := by
  have e2 : W2 m ρ c (Proc.devRef .tc b) = W1 m ρ c (Proc.devRef .tc b) := W2_of_ne m ρ c b r0
  have e3 : W3 m ρ c (Proc.devRef .tc b) = W1 m ρ c (Proc.devRef .tc b) :=
    (StableHlo.after_of_forall_not_mem (b := Proc.devRef .tc b) hostOps1 (W2 m ρ c) h1).trans e2
  exact ⟨e2, e3, (W4_of_ne m ρ c b r1).trans e3⟩

/-- Through the second layer. -/
theorem keepB (b : Ref sig .tc)
    (h3 : ∀ op ∈ (hostOps3 : List (HloOp τ sig (Elt Ideal))), (Proc.devRef .tc b : DevRef τ sig) ∉ op.writes)
    (r2 : ∀ w, Pipeline.arrRef spec2 w ≠ b) (r3 : ∀ w, Pipeline.arrRef spec3 w ≠ b) :
    W5 m ρ c (Proc.devRef .tc b) = W4 m ρ c (Proc.devRef .tc b) ∧ W6 m ρ c (Proc.devRef .tc b) = W4 m ρ c (Proc.devRef .tc b) ∧ W7 m ρ c (Proc.devRef .tc b) = W4 m ρ c (Proc.devRef .tc b) := by
  have e5 : W5 m ρ c (Proc.devRef .tc b) = W4 m ρ c (Proc.devRef .tc b) := W5_of_ne m ρ c b r2
  have e6 : W6 m ρ c (Proc.devRef .tc b) = W4 m ρ c (Proc.devRef .tc b) :=
    (StableHlo.after_of_forall_not_mem (b := Proc.devRef .tc b) hostOps3 (W5 m ρ c) h3).trans e5
  exact ⟨e5, e6, (W7_of_ne m ρ c b r3).trans e6⟩

/-- Through the third layer. -/
theorem keepC (b : Ref sig .tc)
    (h5 : ∀ op ∈ (hostOps5 : List (HloOp τ sig (Elt Ideal))), (Proc.devRef .tc b : DevRef τ sig) ∉ op.writes)
    (r4 : ∀ w, Pipeline.arrRef spec4 w ≠ b) (r5 : ∀ w, Pipeline.arrRef spec5 w ≠ b) :
    W8 m ρ c (Proc.devRef .tc b) = W7 m ρ c (Proc.devRef .tc b) ∧ W9 m ρ c (Proc.devRef .tc b) = W7 m ρ c (Proc.devRef .tc b) ∧ W10 m ρ c (Proc.devRef .tc b) = W7 m ρ c (Proc.devRef .tc b) := by
  have e8 : W8 m ρ c (Proc.devRef .tc b) = W7 m ρ c (Proc.devRef .tc b) := W8_of_ne m ρ c b r4
  have e9 : W9 m ρ c (Proc.devRef .tc b) = W7 m ρ c (Proc.devRef .tc b) :=
    (StableHlo.after_of_forall_not_mem (b := Proc.devRef .tc b) hostOps5 (W8 m ρ c) h5).trans e8
  exact ⟨e8, e9, (W10_of_ne m ρ c b r5).trans e9⟩

/-- A buffer that none of the three inner host stretches writes and that is no pallas_call's array holds, at every
    boundary after the first host stretch, what it held there. -/
theorem keep (b : Ref sig .tc)
    (h1 : ∀ op ∈ (hostOps1 : List (HloOp τ sig (Elt Ideal))), (Proc.devRef .tc b : DevRef τ sig) ∉ op.writes)
    (h3 : ∀ op ∈ (hostOps3 : List (HloOp τ sig (Elt Ideal))), (Proc.devRef .tc b : DevRef τ sig) ∉ op.writes)
    (h5 : ∀ op ∈ (hostOps5 : List (HloOp τ sig (Elt Ideal))), (Proc.devRef .tc b : DevRef τ sig) ∉ op.writes)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b) (r4 : ∀ w, Pipeline.arrRef spec4 w ≠ b) (r5 : ∀ w, Pipeline.arrRef spec5 w ≠ b) :
    W2 m ρ c (Proc.devRef .tc b) = W1 m ρ c (Proc.devRef .tc b)
    ∧ W3 m ρ c (Proc.devRef .tc b) = W1 m ρ c (Proc.devRef .tc b)
    ∧ W4 m ρ c (Proc.devRef .tc b) = W1 m ρ c (Proc.devRef .tc b)
    ∧ W5 m ρ c (Proc.devRef .tc b) = W1 m ρ c (Proc.devRef .tc b)
    ∧ W6 m ρ c (Proc.devRef .tc b) = W1 m ρ c (Proc.devRef .tc b)
    ∧ W7 m ρ c (Proc.devRef .tc b) = W1 m ρ c (Proc.devRef .tc b)
    ∧ W8 m ρ c (Proc.devRef .tc b) = W1 m ρ c (Proc.devRef .tc b)
    ∧ W9 m ρ c (Proc.devRef .tc b) = W1 m ρ c (Proc.devRef .tc b)
    ∧ W10 m ρ c (Proc.devRef .tc b) = W1 m ρ c (Proc.devRef .tc b) := by
  obtain ⟨e2, e3, e4⟩ := keepA m ρ c b h1 r0 r1
  obtain ⟨e5, e6, e7⟩ := keepB m ρ c b h3 r2 r3
  obtain ⟨e8, e9, e10⟩ := keepC m ρ c b h5 r4 r5
  exact ⟨e2, e3, e4, e5.trans e4, e6.trans e4, e7.trans e4, e8.trans (e7.trans e4), e9.trans (e7.trans e4),
    e10.trans (e7.trans e4)⟩

/-- An argument array holds after the first host stretch what it held at launch. -/
theorem launch (b : Ref sig .tc)
    (h0 : ∀ op ∈ (hostOps0 : List (HloOp τ sig (Elt Ideal))), (Proc.devRef .tc b : DevRef τ sig) ∉ op.writes) :
    W1 m ρ c (Proc.devRef .tc b) = m ((c.tc : Thread nD τ).loc b) :=
  (StableHlo.after_of_forall_not_mem (b := Proc.devRef .tc b) hostOps0 (W0 m ρ c) h0).trans rfl

def keep_v1 := keep m ρ c main_v1 (by not_written) (by not_written) (by not_written)
  (by decide) (by decide) (by decide) (by decide) (by decide) (by decide)
def keep_v3 := keep m ρ c main_v3 (by not_written) (by not_written) (by not_written)
  (by decide) (by decide) (by decide) (by decide) (by decide) (by decide)
def keep_v25 := keep m ρ c main_v25 (by not_written) (by not_written) (by not_written)
  (by decide) (by decide) (by decide) (by decide) (by decide) (by decide)
def keep_v26 := keep m ρ c main_v26 (by not_written) (by not_written) (by not_written)
  (by decide) (by decide) (by decide) (by decide) (by decide) (by decide)

def keep_arg2 := keep m ρ c main_arg2 (by not_written) (by not_written) (by not_written)
  (by decide) (by decide) (by decide) (by decide) (by decide) (by decide)
def launch_arg2 := launch m ρ c main_arg2 (by not_written)
def launch_arg4 := launch m ρ c main_arg4 (by not_written)
def keep_arg5 := keep m ρ c main_arg5 (by not_written) (by not_written) (by not_written)
  (by decide) (by decide) (by decide) (by decide) (by decide) (by decide)
def launch_arg5 := launch m ρ c main_arg5 (by not_written)
def keepA_arg6 := keepA m ρ c main_arg6 (by not_written) (by decide) (by decide)
def launch_arg6 := launch m ρ c main_arg6 (by not_written)
def keep_arg7 := keep m ρ c main_arg7 (by not_written) (by not_written) (by not_written)
  (by decide) (by decide) (by decide) (by decide) (by decide) (by decide)
def launch_arg7 := launch m ρ c main_arg7 (by not_written)
def keepA_arg8 := keepA m ρ c main_arg8 (by not_written) (by decide) (by decide)
def keepB_arg8 := keepB m ρ c main_arg8 (by not_written) (by decide) (by decide)
def launch_arg8 := launch m ρ c main_arg8 (by not_written)
def keep_arg9 := keep m ρ c main_arg9 (by not_written) (by not_written) (by not_written)
  (by decide) (by decide) (by decide) (by decide) (by decide) (by decide)
def launch_arg9 := launch m ρ c main_arg9 (by not_written)
def keep_arg10 := keep m ρ c main_arg10 (by not_written) (by not_written) (by not_written)
  (by decide) (by decide) (by decide) (by decide) (by decide) (by decide)
def launch_arg10 := launch m ρ c main_arg10 (by not_written)
def keep_arg11 := keep m ρ c main_arg11 (by not_written) (by not_written) (by not_written)
  (by decide) (by decide) (by decide) (by decide) (by decide) (by decide)
def launch_arg11 := launch m ρ c main_arg11 (by not_written)

end Cert.KernelIdeal.KCarry

end
-- ==== Proof.KVal.lean ====
/-
  The idealized kernel's result as one function of its twelve argument arrays. The program alternates host
  stretches and pallas_calls. Each linear pallas_call leaves the matrix product of its two input arrays, each combine
  pallas_call leaves (aggregate + projection · self-loop weight) + bias under the leaky rectifier, and each host stretch
  leaves its operations' composed values; the edge list's rows, the edge and self-loop weights and the arguments are
  never overwritten. Reading the boundaries in order gives the network: three layers, then pooling and the final map.
-/
import proofs.«120870_j60653528154494_1_alg».proof.Proof.Gen.KernelIdeal.Frame
import proofs.«120870_j60653528154494_1_alg».proof.Proof.LinArr
import proofs.«120870_j60653528154494_1_alg».proof.Proof.Comb
import proofs.«120870_j60653528154494_1_alg».proof.Proof.KStage
import proofs.«120870_j60653528154494_1_alg».proof.Proof.KCarry
import Idealize.ShloMosaic.Lib.StableHlo.Run
import Idealize.ShloMosaic.Lib.ValueLayout

noncomputable section

namespace Cert.KernelIdeal.KVal

open Cert.KernelIdeal Cert.KernelIdeal.Gen Cert.KernelIdeal.Stage Cert.KernelIdeal.KCarry Cert.Spec
open Idealize.ShloMosaic Idealize.ShloMosaic.TcCoe Idealize.SL.Sem Idealize.ShloMosaic.StableHlo Idealize.ShloMosaic.ValueIdx

/-- A vector of length a cast to an a×1 column reads, at (i, 0), the vector at i. -/
theorem shapeCast_col {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The combine stage fed the self-loop weights as a column and the bias as a row is the combine stage of the plain
    vectors: the column at (r, 0) is the weight of row r, the row at (0, j) the bias of column j. -/
theorem combine_casts {m n : ℕ} (A Y : (⟨2, ![m, n]⟩ : Shape).Idx → EReal) (S : (⟨1, ![m]⟩ : Shape).Idx → EReal)
    (B : (⟨1, ![n]⟩ : Shape).Idx → EReal) (hS : (⟨1, ![m]⟩ : Shape).ShapeCasts ⟨2, ![m, 1]⟩)
    (hB : (⟨1, ![n]⟩ : Shape).ShapeCasts ⟨2, ![1, n]⟩) :
    combine A Y (shapeCast ⟨2, ![m, 1]⟩ S hS) (shapeCast ⟨2, ![1, n]⟩ B hB) = combineV A Y S B := by
  funext i
  unfold combine combineV
  rw [shapeCast_col S hS ⟨(i 0).val, idx2_lt0 i⟩ ⟨0, Nat.one_pos⟩,
    shapeCast_a_1a_apply B hB ⟨0, Nat.one_pos⟩ ⟨(i 1).val, idx2_lt1 i⟩]

variable (m : (ℓ : Loc nD τ sig) → Buf (Elt Ideal) ℓ) (ρ : Dev nD → PrngReg) (c : Dev nD)

/-! ## The first host stretch: the edge list's rows, the weights, the embedded features -/

theorem W1_v1 : W1 m ρ c (Proc.devRef .tc main_v1) = srcOf (m ((c.tc : Thread nD τ).loc main_arg0)) := by
  show StableHlo.after hostOps0 (W0 m ρ c) (Proc.devRef .tc main_v1) = _
  after_results_simp <;> rfl
theorem W1_v3 : W1 m ρ c (Proc.devRef .tc main_v3) = dstOf (m ((c.tc : Thread nD τ).loc main_arg0)) := by
  show StableHlo.after hostOps0 (W0 m ρ c) (Proc.devRef .tc main_v3) = _
  after_results_simp <;> rfl
theorem W1_v25 : W1 m ρ c (Proc.devRef .tc main_v25) = normOf (srcOf (m ((c.tc : Thread nD τ).loc main_arg0))) (dstOf (m ((c.tc : Thread nD τ).loc main_arg0))) := by
  show StableHlo.after hostOps0 (W0 m ρ c) (Proc.devRef .tc main_v25) = _
  after_results_simp <;> rfl
theorem W1_v26 : W1 m ρ c (Proc.devRef .tc main_v26) = selfwOf (dstOf (m ((c.tc : Thread nD τ).loc main_arg0))) := by
  show StableHlo.after hostOps0 (W0 m ρ c) (Proc.devRef .tc main_v26) = _
  after_results_simp <;> rfl
theorem W1_v34 : W1 m ρ c (Proc.devRef .tc main_v34) = embOf (m ((c.tc : Thread nD τ).loc main_arg1)) (m ((c.tc : Thread nD τ).loc main_arg3)) := by
  show StableHlo.after hostOps0 (W0 m ρ c) (Proc.devRef .tc main_v34) = _
  after_results_simp <;> rfl

/-! ## Layer 1 -/

theorem W2_v35 : W2 m ρ c (Proc.devRef .tc main_v35) = dense (W1 m ρ c (Proc.devRef .tc main_v34)) (W1 m ρ c (Proc.devRef .tc main_arg4)) :=
  (W2_arr m ρ c 2).trans (LinArr.arr0 (V1 m ρ) c)

theorem W3_v48 : W3 m ρ c (Proc.devRef .tc main_v48)
    = agg64 (W2 m ρ c (Proc.devRef .tc main_v35)) (W2 m ρ c (Proc.devRef .tc main_v1)) (W2 m ρ c (Proc.devRef .tc main_v3)) (W2 m ρ c (Proc.devRef .tc main_v25)) := by
  show StableHlo.after hostOps1 (W2 m ρ c) (Proc.devRef .tc main_v48) = _
  after_results_simp <;> rfl
theorem W3_v35 : W3 m ρ c (Proc.devRef .tc main_v35) = W2 m ρ c (Proc.devRef .tc main_v35) := by
  show StableHlo.after hostOps1 (W2 m ρ c) (Proc.devRef .tc main_v35) = _
  after_results_simp
theorem W3_v49 : W3 m ρ c (Proc.devRef .tc main_v49) = shapeCast S100000x1 (W2 m ρ c (Proc.devRef .tc main_v26)) shapeCasts_S100000_S100000x1 := by
  show StableHlo.after hostOps1 (W2 m ρ c) (Proc.devRef .tc main_v49) = _
  after_results_simp <;> rfl
theorem W3_v50 : W3 m ρ c (Proc.devRef .tc main_v50) = shapeCast S1x64 (W2 m ρ c (Proc.devRef .tc main_arg5)) shapeCasts_S64_S1x64 := by
  show StableHlo.after hostOps1 (W2 m ρ c) (Proc.devRef .tc main_v50) = _
  after_results_simp <;> rfl

theorem W4_v51 : W4 m ρ c (Proc.devRef .tc main_v51)
    = layer64 (W1 m ρ c (Proc.devRef .tc main_v34)) (m ((c.tc : Thread nD τ).loc main_arg4)) (W1 m ρ c (Proc.devRef .tc main_v1)) (W1 m ρ c (Proc.devRef .tc main_v3)) (W1 m ρ c (Proc.devRef .tc main_v25))
        (W1 m ρ c (Proc.devRef .tc main_v26)) (m ((c.tc : Thread nD τ).loc main_arg5)) := by
  refine (W4_arr m ρ c 4).trans ((Comb.arr1 (V3 m ρ) c).trans ?_)
  show combine (W3 m ρ c (Proc.devRef .tc main_v48)) (W3 m ρ c (Proc.devRef .tc main_v35)) (W3 m ρ c (Proc.devRef .tc main_v49)) (W3 m ρ c (Proc.devRef .tc main_v50)) = _
  rw [W3_v48 m ρ c, W3_v35 m ρ c, W3_v49 m ρ c, W3_v50 m ρ c, W2_v35 m ρ c, (keep_v1 m ρ c).1, (keep_v3 m ρ c).1,
    (keep_v25 m ρ c).1, (keep_v26 m ρ c).1, (keep_arg5 m ρ c).1, launch_arg5 m ρ c, launch_arg4 m ρ c]
  exact combine_casts _ _ _ _ _ _

/-! ## Layer 2 -/

theorem W5_v52 : W5 m ρ c (Proc.devRef .tc main_v52) = dense (W4 m ρ c (Proc.devRef .tc main_v51)) (W4 m ρ c (Proc.devRef .tc main_arg6)) :=
  (W5_arr m ρ c 2).trans (LinArr.arr2 (V4 m ρ) c)

theorem W6_v65 : W6 m ρ c (Proc.devRef .tc main_v65)
    = agg64 (W5 m ρ c (Proc.devRef .tc main_v52)) (W5 m ρ c (Proc.devRef .tc main_v1)) (W5 m ρ c (Proc.devRef .tc main_v3)) (W5 m ρ c (Proc.devRef .tc main_v25)) := by
  show StableHlo.after hostOps3 (W5 m ρ c) (Proc.devRef .tc main_v65) = _
  after_results_simp <;> rfl
theorem W6_v52 : W6 m ρ c (Proc.devRef .tc main_v52) = W5 m ρ c (Proc.devRef .tc main_v52) := by
  show StableHlo.after hostOps3 (W5 m ρ c) (Proc.devRef .tc main_v52) = _
  after_results_simp
theorem W6_v66 : W6 m ρ c (Proc.devRef .tc main_v66) = shapeCast S100000x1 (W5 m ρ c (Proc.devRef .tc main_v26)) shapeCasts_S100000_S100000x1 := by
  show StableHlo.after hostOps3 (W5 m ρ c) (Proc.devRef .tc main_v66) = _
  after_results_simp <;> rfl
theorem W6_v67 : W6 m ρ c (Proc.devRef .tc main_v67) = shapeCast S1x64 (W5 m ρ c (Proc.devRef .tc main_arg7)) shapeCasts_S64_S1x64 := by
  show StableHlo.after hostOps3 (W5 m ρ c) (Proc.devRef .tc main_v67) = _
  after_results_simp <;> rfl

theorem W7_v68 : W7 m ρ c (Proc.devRef .tc main_v68)
    = layer64 (W4 m ρ c (Proc.devRef .tc main_v51)) (m ((c.tc : Thread nD τ).loc main_arg6)) (W1 m ρ c (Proc.devRef .tc main_v1)) (W1 m ρ c (Proc.devRef .tc main_v3)) (W1 m ρ c (Proc.devRef .tc main_v25))
        (W1 m ρ c (Proc.devRef .tc main_v26)) (m ((c.tc : Thread nD τ).loc main_arg7)) := by
  refine (W7_arr m ρ c 4).trans ((Comb.arr3 (V6 m ρ) c).trans ?_)
  show combine (W6 m ρ c (Proc.devRef .tc main_v65)) (W6 m ρ c (Proc.devRef .tc main_v52)) (W6 m ρ c (Proc.devRef .tc main_v66)) (W6 m ρ c (Proc.devRef .tc main_v67)) = _
  rw [W6_v65 m ρ c, W6_v52 m ρ c, W6_v66 m ρ c, W6_v67 m ρ c, W5_v52 m ρ c, (keep_v1 m ρ c).2.2.2.1, (keep_v3 m ρ c).2.2.2.1,
    (keep_v25 m ρ c).2.2.2.1, (keep_v26 m ρ c).2.2.2.1, (keep_arg7 m ρ c).2.2.2.1, launch_arg7 m ρ c,
    (keepA_arg6 m ρ c).2.2, launch_arg6 m ρ c]
  exact combine_casts _ _ _ _ _ _

/-! ## Layer 3 -/

theorem W8_v69 : W8 m ρ c (Proc.devRef .tc main_v69) = dense (W7 m ρ c (Proc.devRef .tc main_v68)) (W7 m ρ c (Proc.devRef .tc main_arg8)) :=
  (W8_arr m ρ c 2).trans (LinArr.arr4 (V7 m ρ) c)

theorem W9_v82 : W9 m ρ c (Proc.devRef .tc main_v82)
    = agg32 (W8 m ρ c (Proc.devRef .tc main_v69)) (W8 m ρ c (Proc.devRef .tc main_v1)) (W8 m ρ c (Proc.devRef .tc main_v3)) (W8 m ρ c (Proc.devRef .tc main_v25)) := by
  show StableHlo.after hostOps5 (W8 m ρ c) (Proc.devRef .tc main_v82) = _
  after_results_simp <;> rfl
theorem W9_v69 : W9 m ρ c (Proc.devRef .tc main_v69) = W8 m ρ c (Proc.devRef .tc main_v69) := by
  show StableHlo.after hostOps5 (W8 m ρ c) (Proc.devRef .tc main_v69) = _
  after_results_simp
theorem W9_v83 : W9 m ρ c (Proc.devRef .tc main_v83) = shapeCast S100000x1 (W8 m ρ c (Proc.devRef .tc main_v26)) shapeCasts_S100000_S100000x1 := by
  show StableHlo.after hostOps5 (W8 m ρ c) (Proc.devRef .tc main_v83) = _
  after_results_simp <;> rfl
theorem W9_v84 : W9 m ρ c (Proc.devRef .tc main_v84) = shapeCast S1x32 (W8 m ρ c (Proc.devRef .tc main_arg9)) shapeCasts_S32_S1x32 := by
  show StableHlo.after hostOps5 (W8 m ρ c) (Proc.devRef .tc main_v84) = _
  after_results_simp <;> rfl

theorem W10_v85 : W10 m ρ c (Proc.devRef .tc main_v85)
    = layer32 (W7 m ρ c (Proc.devRef .tc main_v68)) (m ((c.tc : Thread nD τ).loc main_arg8)) (W1 m ρ c (Proc.devRef .tc main_v1)) (W1 m ρ c (Proc.devRef .tc main_v3)) (W1 m ρ c (Proc.devRef .tc main_v25))
        (W1 m ρ c (Proc.devRef .tc main_v26)) (m ((c.tc : Thread nD τ).loc main_arg9)) := by
  refine (W10_arr m ρ c 4).trans ((Comb.arr5 (V9 m ρ) c).trans ?_)
  show combine (W9 m ρ c (Proc.devRef .tc main_v82)) (W9 m ρ c (Proc.devRef .tc main_v69)) (W9 m ρ c (Proc.devRef .tc main_v83)) (W9 m ρ c (Proc.devRef .tc main_v84)) = _
  rw [W9_v82 m ρ c, W9_v69 m ρ c, W9_v83 m ρ c, W9_v84 m ρ c, W8_v69 m ρ c, (keep_v1 m ρ c).2.2.2.2.2.2.1, (keep_v3 m ρ c).2.2.2.2.2.2.1,
    (keep_v25 m ρ c).2.2.2.2.2.2.1, (keep_v26 m ρ c).2.2.2.2.2.2.1, (keep_arg9 m ρ c).2.2.2.2.2.2.1, launch_arg9 m ρ c,
    (keepB_arg8 m ρ c).2.2, (keepA_arg8 m ρ c).2.2, launch_arg8 m ρ c]
  exact combine_casts _ _ _ _ _ _

/-! ## Pooling and the output map; the whole network -/

theorem W11_v102 : W11 m ρ c (Proc.devRef .tc main_v102)
    = tailOf (W10 m ρ c (Proc.devRef .tc main_v85)) (W10 m ρ c (Proc.devRef .tc main_arg2)) (W10 m ρ c (Proc.devRef .tc main_arg10)) (W10 m ρ c (Proc.devRef .tc main_arg11)) := by
  show StableHlo.after hostOps6 (W10 m ρ c) (Proc.devRef .tc main_v102) = _
  after_results_simp <;> rfl

/-- The result buffer after the last host stretch is the network applied to the argument arrays as launched. -/
theorem value : W11 m ρ c (Proc.devRef .tc main_v102)
    = final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [W11_v102 m ρ c, W10_v85 m ρ c, W7_v68 m ρ c, W4_v51 m ρ c, (keep_arg2 m ρ c).2.2.2.2.2.2.2.2, launch_arg2 m ρ c,
    (keep_arg10 m ρ c).2.2.2.2.2.2.2.2, launch_arg10 m ρ c, (keep_arg11 m ρ c).2.2.2.2.2.2.2.2, launch_arg11 m ρ c,
    W1_v1 m ρ c, W1_v3 m ρ c, W1_v25 m ρ c, W1_v26 m ρ c, W1_v34 m ρ c]
  rfl

end Cert.KernelIdeal.KVal

end
-- ==== Proof.RKeep.lean ====
/-
  The idealized reference's 158 host operations cut into five pieces — 44 that prepare the edge list's rows, the
  weights and the embedded features, three layers of 31 operations, 21 that pool and apply the final map — and what each
  piece leaves alone: an operation writes only the value it defines, so the edge rows, the weights and the argument
  arrays pass through the later pieces unchanged, and the arguments through the whole line.
-/
import proofs.«120870_j60653528154494_1_alg».proof.Proof.RunP
import Idealize.ShloMosaic.Lib.StableHlo.Run
import Idealize.ShloMosaic.PureOps.Ideal

set_option maxRecDepth 16384

noncomputable section

namespace Cert.ReferenceIdeal.RKeep

open Cert.ReferenceIdeal Cert.ReferenceIdeal.Facts₀ Cert.ReferenceIdeal.Gen Cert.ReferenceIdeal.ValueP
open Idealize.ShloMosaic Idealize.ShloMosaic.TcCoe Idealize.SL.Sem Idealize.ShloMosaic.StableHlo

/-- The 44 preparing operations. -/
def pre : List (HloOp τ sig (Elt Ideal)) := (ops (F := Ideal)).take 44
/-- The first layer's 31 operations. -/
def lay1 : List (HloOp τ sig (Elt Ideal)) := ((ops (F := Ideal)).drop 44).take 31
/-- The second layer's 31 operations. -/
def lay2 : List (HloOp τ sig (Elt Ideal)) := ((ops (F := Ideal)).drop 75).take 31
/-- The third layer's 31 operations. -/
def lay3 : List (HloOp τ sig (Elt Ideal)) := ((ops (F := Ideal)).drop 106).take 31
/-- The 21 pooling and output operations. -/
def tl : List (HloOp τ sig (Elt Ideal)) := (ops (F := Ideal)).drop 137

theorem ops_split : (ops (F := Ideal)) = pre ++ (lay1 ++ (lay2 ++ (lay3 ++ tl))) := rfl

/-- Spell a piece as its literal list of operations. -/
local macro "spell" : tactic => `(tactic| simp only [pre, lay1, lay2, lay3, tl, ops, List.take_succ_cons, List.take_zero,
  List.drop_succ_cons, List.drop_zero])

/-- No operation of a piece writes the buffer: each operation writes exactly its result buffer, another buffer. -/
local macro "not_written" : tactic => `(tactic| (
  refine List.forall_iff_forall_mem.mp ?_
  simp only [pre, lay1, lay2, lay3, tl, ops, List.take_succ_cons, List.take_zero, List.drop_succ_cons, List.drop_zero,
    List.Forall, TRef.ternary, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (V : Valuation τ sig (Elt Ideal))

/-! ## What each piece leaves alone -/

theorem pre_keep_arg2 : after pre V (Proc.devRef .tc main_arg2) = V (Proc.devRef .tc main_arg2) :=
  after_of_forall_not_mem (b := (Proc.devRef .tc main_arg2)) pre V (by not_written)
theorem pre_keep_arg10 : after pre V (Proc.devRef .tc main_arg10) = V (Proc.devRef .tc main_arg10) :=
  after_of_forall_not_mem (b := (Proc.devRef .tc main_arg10)) pre V (by not_written)
theorem pre_keep_arg11 : after pre V (Proc.devRef .tc main_arg11) = V (Proc.devRef .tc main_arg11) :=
  after_of_forall_not_mem (b := (Proc.devRef .tc main_arg11)) pre V (by not_written)
theorem pre_keep_arg8 : after pre V (Proc.devRef .tc main_arg8) = V (Proc.devRef .tc main_arg8) :=
  after_of_forall_not_mem (b := (Proc.devRef .tc main_arg8)) pre V (by not_written)
theorem pre_keep_arg9 : after pre V (Proc.devRef .tc main_arg9) = V (Proc.devRef .tc main_arg9) :=
  after_of_forall_not_mem (b := (Proc.devRef .tc main_arg9)) pre V (by not_written)
theorem pre_keep_arg6 : after pre V (Proc.devRef .tc main_arg6) = V (Proc.devRef .tc main_arg6) :=
  after_of_forall_not_mem (b := (Proc.devRef .tc main_arg6)) pre V (by not_written)
theorem pre_keep_arg7 : after pre V (Proc.devRef .tc main_arg7) = V (Proc.devRef .tc main_arg7) :=
  after_of_forall_not_mem (b := (Proc.devRef .tc main_arg7)) pre V (by not_written)
theorem pre_keep_arg4 : after pre V (Proc.devRef .tc main_arg4) = V (Proc.devRef .tc main_arg4) :=
  after_of_forall_not_mem (b := (Proc.devRef .tc main_arg4)) pre V (by not_written)
theorem pre_keep_arg5 : after pre V (Proc.devRef .tc main_arg5) = V (Proc.devRef .tc main_arg5) :=
  after_of_forall_not_mem (b := (Proc.devRef .tc main_arg5)) pre V (by not_written)
theorem lay1_keep_arg2 : after lay1 V (Proc.devRef .tc main_arg2) = V (Proc.devRef .tc main_arg2) :=
  after_of_forall_not_mem (b := (Proc.devRef .tc main_arg2)) lay1 V (by not_written)
theorem lay1_keep_arg10 : after lay1 V (Proc.devRef .tc main_arg10) = V (Proc.devRef .tc main_arg10) :=
  after_of_forall_not_mem (b := (Proc.devRef .tc main_arg10)) lay1 V (by not_written)
theorem lay1_keep_arg11 : after lay1 V (Proc.devRef .tc main_arg11) = V (Proc.devRef .tc main_arg11) :=
  after_of_forall_not_mem (b := (Proc.devRef .tc main_arg11)) lay1 V (by not_written)
theorem lay1_keep_arg8 : after lay1 V (Proc.devRef .tc main_arg8) = V (Proc.devRef .tc main_arg8) :=
  after_of_forall_not_mem (b := (Proc.devRef .tc main_arg8)) lay1 V (by not_written)
theorem lay1_keep_arg9 : after lay1 V (Proc.devRef .tc main_arg9) = V (Proc.devRef .tc main_arg9) :=
  after_of_forall_not_mem (b := (Proc.devRef .tc main_arg9)) lay1 V (by not_written)
theorem lay1_keep_v1 : after lay1 V (Proc.devRef .tc main_v1) = V (Proc.devRef .tc main_v1) :=
  after_of_forall_not_mem (b := (Proc.devRef .tc main_v1)) lay1 V (by not_written)
theorem lay1_keep_v3 : after lay1 V (Proc.devRef .tc main_v3) = V (Proc.devRef .tc main_v3) :=
  after_of_forall_not_mem (b := (Proc.devRef .tc main_v3)) lay1 V (by not_written)
theorem lay1_keep_v25 : after lay1 V (Proc.devRef .tc main_v25) = V (Proc.devRef .tc main_v25) :=
  after_of_forall_not_mem (b := (Proc.devRef .tc main_v25)) lay1 V (by not_written)
theorem lay1_keep_v26 : after lay1 V (Proc.devRef .tc main_v26) = V (Proc.devRef .tc main_v26) :=
  after_of_forall_not_mem (b := (Proc.devRef .tc main_v26)) lay1 V (by not_written)
theorem lay1_keep_arg6 : after lay1 V (Proc.devRef .tc main_arg6) = V (Proc.devRef .tc main_arg6) :=
  after_of_forall_not_mem (b := (Proc.devRef .tc main_arg6)) lay1 V (by not_written)
theorem lay1_keep_arg7 : after lay1 V (Proc.devRef .tc main_arg7) = V (Proc.devRef .tc main_arg7) :=
  after_of_forall_not_mem (b := (Proc.devRef .tc main_arg7)) lay1 V (by not_written)
theorem lay2_keep_arg2 : after lay2 V (Proc.devRef .tc main_arg2) = V (Proc.devRef .tc main_arg2) :=
  after_of_forall_not_mem (b := (Proc.devRef .tc main_arg2)) lay2 V (by not_written)
theorem lay2_keep_arg10 : after lay2 V (Proc.devRef .tc main_arg10) = V (Proc.devRef .tc main_arg10) :=
  after_of_forall_not_mem (b := (Proc.devRef .tc main_arg10)) lay2 V (by not_written)
theorem lay2_keep_arg11 : after lay2 V (Proc.devRef .tc main_arg11) = V (Proc.devRef .tc main_arg11) :=
  after_of_forall_not_mem (b := (Proc.devRef .tc main_arg11)) lay2 V (by not_written)
theorem lay2_keep_arg8 : after lay2 V (Proc.devRef .tc main_arg8) = V (Proc.devRef .tc main_arg8) :=
  after_of_forall_not_mem (b := (Proc.devRef .tc main_arg8)) lay2 V (by not_written)
theorem lay2_keep_arg9 : after lay2 V (Proc.devRef .tc main_arg9) = V (Proc.devRef .tc main_arg9) :=
  after_of_forall_not_mem (b := (Proc.devRef .tc main_arg9)) lay2 V (by not_written)
theorem lay2_keep_v1 : after lay2 V (Proc.devRef .tc main_v1) = V (Proc.devRef .tc main_v1) :=
  after_of_forall_not_mem (b := (Proc.devRef .tc main_v1)) lay2 V (by not_written)
theorem lay2_keep_v3 : after lay2 V (Proc.devRef .tc main_v3) = V (Proc.devRef .tc main_v3) :=
  after_of_forall_not_mem (b := (Proc.devRef .tc main_v3)) lay2 V (by not_written)
theorem lay2_keep_v25 : after lay2 V (Proc.devRef .tc main_v25) = V (Proc.devRef .tc main_v25) :=
  after_of_forall_not_mem (b := (Proc.devRef .tc main_v25)) lay2 V (by not_written)
theorem lay2_keep_v26 : after lay2 V (Proc.devRef .tc main_v26) = V (Proc.devRef .tc main_v26) :=
  after_of_forall_not_mem (b := (Proc.devRef .tc main_v26)) lay2 V (by not_written)
theorem lay3_keep_arg2 : after lay3 V (Proc.devRef .tc main_arg2) = V (Proc.devRef .tc main_arg2) :=
  after_of_forall_not_mem (b := (Proc.devRef .tc main_arg2)) lay3 V (by not_written)
theorem lay3_keep_arg10 : after lay3 V (Proc.devRef .tc main_arg10) = V (Proc.devRef .tc main_arg10) :=
  after_of_forall_not_mem (b := (Proc.devRef .tc main_arg10)) lay3 V (by not_written)
theorem lay3_keep_arg11 : after lay3 V (Proc.devRef .tc main_arg11) = V (Proc.devRef .tc main_arg11) :=
  after_of_forall_not_mem (b := (Proc.devRef .tc main_arg11)) lay3 V (by not_written)

/-! ## The whole line leaves the arguments alone -/

theorem ops_keep_arg0 : after (ops (F := Ideal)) V (Proc.devRef .tc main_arg0) = V (Proc.devRef .tc main_arg0) :=
  after_of_forall_not_mem (b := (Proc.devRef .tc main_arg0)) ops V (by not_written)
theorem ops_keep_arg1 : after (ops (F := Ideal)) V (Proc.devRef .tc main_arg1) = V (Proc.devRef .tc main_arg1) :=
  after_of_forall_not_mem (b := (Proc.devRef .tc main_arg1)) ops V (by not_written)
theorem ops_keep_arg2 : after (ops (F := Ideal)) V (Proc.devRef .tc main_arg2) = V (Proc.devRef .tc main_arg2) :=
  after_of_forall_not_mem (b := (Proc.devRef .tc main_arg2)) ops V (by not_written)
theorem ops_keep_arg3 : after (ops (F := Ideal)) V (Proc.devRef .tc main_arg3) = V (Proc.devRef .tc main_arg3) :=
  after_of_forall_not_mem (b := (Proc.devRef .tc main_arg3)) ops V (by not_written)
theorem ops_keep_arg4 : after (ops (F := Ideal)) V (Proc.devRef .tc main_arg4) = V (Proc.devRef .tc main_arg4) :=
  after_of_forall_not_mem (b := (Proc.devRef .tc main_arg4)) ops V (by not_written)
theorem ops_keep_arg5 : after (ops (F := Ideal)) V (Proc.devRef .tc main_arg5) = V (Proc.devRef .tc main_arg5) :=
  after_of_forall_not_mem (b := (Proc.devRef .tc main_arg5)) ops V (by not_written)
theorem ops_keep_arg6 : after (ops (F := Ideal)) V (Proc.devRef .tc main_arg6) = V (Proc.devRef .tc main_arg6) :=
  after_of_forall_not_mem (b := (Proc.devRef .tc main_arg6)) ops V (by not_written)
theorem ops_keep_arg7 : after (ops (F := Ideal)) V (Proc.devRef .tc main_arg7) = V (Proc.devRef .tc main_arg7) :=
  after_of_forall_not_mem (b := (Proc.devRef .tc main_arg7)) ops V (by not_written)
theorem ops_keep_arg8 : after (ops (F := Ideal)) V (Proc.devRef .tc main_arg8) = V (Proc.devRef .tc main_arg8) :=
  after_of_forall_not_mem (b := (Proc.devRef .tc main_arg8)) ops V (by not_written)
theorem ops_keep_arg9 : after (ops (F := Ideal)) V (Proc.devRef .tc main_arg9) = V (Proc.devRef .tc main_arg9) :=
  after_of_forall_not_mem (b := (Proc.devRef .tc main_arg9)) ops V (by not_written)
theorem ops_keep_arg10 : after (ops (F := Ideal)) V (Proc.devRef .tc main_arg10) = V (Proc.devRef .tc main_arg10) :=
  after_of_forall_not_mem (b := (Proc.devRef .tc main_arg10)) ops V (by not_written)
theorem ops_keep_arg11 : after (ops (F := Ideal)) V (Proc.devRef .tc main_arg11) = V (Proc.devRef .tc main_arg11) :=
  after_of_forall_not_mem (b := (Proc.devRef .tc main_arg11)) ops V (by not_written)

end Cert.ReferenceIdeal.RKeep

end
-- ==== Proof.RStage.lean ====
/-
  The network's stages as pure functions of arrays, at exact arithmetic, spelt with the dimension records of the
  idealized reference program: the edge list's two rows, the normalisation weights, the embedding lookup, the neighbour
  aggregation (gather the sources' rows, weight them, sum them into the destinations' rows), one layer
  (projection, aggregation, self-loop, bias, leaky rectifier), and the pooling and final linear map.
-/
import proofs.«120870_j60653528154494_1_alg».proof.Proof.Gen.ReferenceIdeal
import proofs.«120870_j60653528154494_1_alg».proof.Proof.Spec

noncomputable section

namespace Cert.ReferenceIdeal.Stage

open Cert.ReferenceIdeal Cert.ReferenceIdeal.Facts₀ Idealize.ShloMosaic Idealize.ShloMosaic.TcCoe Idealize.SL.Sem Idealize.ShloMosaic.StableHlo

/-- Row 0 of the 2×E edge list: the source node of every edge. -/
def srcOf (e : (IVec S2x3200000 32)) : (IVec S3200000 32) :=
  shapeCast S3200000 (extractStridedSlice S1x3200000 ![0, 0] e slices_S2x3200000_S1x3200000_0_0) shapeCasts_S1x3200000_S3200000

/-- Row 1 of the edge list: the destination node of every edge. -/
def dstOf (e : (IVec S2x3200000 32)) : (IVec S3200000 32) :=
  shapeCast S3200000 (extractStridedSlice S1x3200000 ![1, 0] e slices_S2x3200000_S1x3200000_1_0) shapeCasts_S1x3200000_S3200000

/-- Node numbers as an index column: a negative number counts from the end (i < 0 becomes i + 100000). -/
def wrapCol (i : (IVec S3200000 32)) : (IVec S3200000x1 32) :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- deg^(-1/2) per node, deg = 1 (the self-loop) + the number of edges ending at the node. -/
def dinvOf (d : (IVec S3200000 32)) : (FVec Ideal S100000 .f32) :=
  Host.rsqrt (F := Ideal) (addf
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 d)
      (broadcastInDim S3200000 ![] bcast_S_S3200000 (constant (F := Ideal) S_ .f32 0x3F800000#32)))
    (broadcastInDim S100000 ![] bcast_S_S100000 (constant (F := Ideal) S_ .f32 0x3F800000#32)))

/-- The weight of every edge: deg^(-1/2) of its source times deg^(-1/2) of its destination. -/
def normOf (s d : (IVec S3200000 32)) : (FVec Ideal S3200000 .f32) :=
  mulf (Host.gather gather_S100000_S3200000x1_S3200000_n_0_n_n_0_1_1 (dinvOf d) (wrapCol s))
    (Host.gather gather_S100000_S3200000x1_S3200000_n_0_n_n_0_1_1 (dinvOf d) (wrapCol d))

/-- The weight of every node's self-loop: 1 / deg. -/
def selfwOf (d : (IVec S3200000 32)) : (FVec Ideal S100000 .f32) := mulf (dinvOf d) (dinvOf d)

/-- The embedding rows of the nodes' feature numbers (a negative number counts from the end of the table). -/
def embOf (f : (IVec S100000x1 32)) (emb : (FVec Ideal S10000x64 .f32)) : (FVec Ideal S100000x64 .f32) :=
  Host.gather gather_S10000x64_S100000x1_S100000x64_1_0_n_n_0_1_164 emb
    (broadcastInDim S100000x1 ![0] bcast_S100000_S100000x1_0
      (select (cmpi .slt (shapeCast S100000 f shapeCasts_S100000x1_S100000) (broadcastInDim S100000 ![] bcast_S_S100000 (constantI S_ 32 0#32)))
        (addi (shapeCast S100000 f shapeCasts_S100000x1_S100000) (broadcastInDim S100000 ![] bcast_S_S100000 (constantI S_ 32 10000#32)))
        (shapeCast S100000 f shapeCasts_S100000x1_S100000)))

/-- Neighbour aggregation over 64 features: row r of the result is the sum, over the edges e ending at r, of
    row src(e) of y times the edge's weight. -/
def agg64 (y : (FVec Ideal S100000x64 .f32)) (s d : (IVec S3200000 32)) (nrm : (FVec Ideal S3200000 .f32)) : (FVec Ideal S100000x64 .f32) :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 d)
    (mulf (Host.gather gather_S100000x64_S3200000x1_S3200000x64_1_0_n_n_0_1_164 y (wrapCol s))
      (broadcastInDim S3200000x64 ![0, 1] bcast_S3200000x1_S3200000x64_0_1
        (broadcastInDim S3200000x1 ![0] bcast_S3200000_S3200000x1_0 nrm)))

/-- Neighbour aggregation over 32 features. -/
def agg32 (y : (FVec Ideal S100000x32 .f32)) (s d : (IVec S3200000 32)) (nrm : (FVec Ideal S3200000 .f32)) : (FVec Ideal S100000x32 .f32) :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 d)
    (mulf (Host.gather gather_S100000x32_S3200000x1_S3200000x32_1_0_n_n_0_1_132 y (wrapCol s))
      (broadcastInDim S3200000x32 ![0, 1] bcast_S3200000x1_S3200000x32_0_1
        (broadcastInDim S3200000x1 ![0] bcast_S3200000_S3200000x1_0 nrm)))

/-- Mean pooling over the graphs and the final linear map: per graph, the sum of its nodes' rows divided by
    max(number of its nodes, 1), times the 32×1 weight, plus the bias. -/
def tailOf (x : (FVec Ideal S100000x32 .f32)) (bt : (IVec S100000 32)) (fw : (FVec Ideal S32x1 .f32)) (fb : (FVec Ideal S1 .f32)) : (FVec Ideal S1024 .f32) :=
  shapeCast S1024 (addf
    (Host.dotGeneral (F := Ideal) dot_S1024x32_S32x1_S1024x1_1_0_0_1_n_n none
      (Host.divf (F := Ideal)
        (Host.scatterAdd (F := Ideal) scatter_S1024x32_S100000x1_S100000x32_1_0_0_1
          (broadcastInDim S1024x32 ![] bcast_S_S1024x32 (constant (F := Ideal) S_ .f32 0x00000000#32))
          (broadcastInDim S100000x1 ![0] bcast_S100000_S100000x1_0 bt) x)
        (broadcastInDim S1024x32 ![0, 1] bcast_S1024x1_S1024x32_0_1 (broadcastInDim S1024x1 ![0] bcast_S1024_S1024x1_0
          (maximumf
            (Host.scatterAdd (F := Ideal) scatter_S1024_S100000x1_S100000_n_0_0_1
              (broadcastInDim S1024 ![] bcast_S_S1024 (constant (F := Ideal) S_ .f32 0x00000000#32))
              (broadcastInDim S100000x1 ![0] bcast_S100000_S100000x1_0 bt)
              (broadcastInDim S100000 ![] bcast_S_S100000 (constant (F := Ideal) S_ .f32 0x3F800000#32)))
            (broadcastInDim S1024 ![] bcast_S_S1024 (constant (F := Ideal) S_ .f32 0x3F800000#32))))))
      fw)
    (broadcastInDim S1024x1 ![0, 1] bcast_S1x1_S1024x1_0_1 (broadcastInDim S1x1 ![1] bcast_S1_S1x1_1 fb)))
    shapeCasts_S1024x1_S1024

/-- One graph-convolution layer on 64 output features: project, aggregate over the neighbours, add the node's own
    projection weighted by its self-loop weight and the bias, apply the leaky rectifier. -/
def layer64 (x : (FVec Ideal S100000x64 .f32)) (W : (FVec Ideal S64x64 .f32)) (s d : (IVec S3200000 32)) (nrm : (FVec Ideal S3200000 .f32))
    (sw : (FVec Ideal S100000 .f32)) (b : (FVec Ideal S64 .f32)) : (FVec Ideal S100000x64 .f32) :=
  Cert.Spec.combineV (agg64 (Cert.Spec.dense x W) s d nrm) (Cert.Spec.dense x W) sw b

/-- The last layer: 64 input features, 32 output features. -/
def layer32 (x : (FVec Ideal S100000x64 .f32)) (W : (FVec Ideal S64x32 .f32)) (s d : (IVec S3200000 32)) (nrm : (FVec Ideal S3200000 .f32))
    (sw : (FVec Ideal S100000 .f32)) (b : (FVec Ideal S32 .f32)) : (FVec Ideal S100000x32 .f32) :=
  Cert.Spec.combineV (agg32 (Cert.Spec.dense x W) s d nrm) (Cert.Spec.dense x W) sw b

/-- The whole network as one function of the twelve argument arrays. -/
def final (a0 : (IVec S2x3200000 32)) (a1 : (IVec S100000x1 32)) (a2 : (IVec S100000 32)) (a3 : (FVec Ideal S10000x64 .f32))
    (a4 : (FVec Ideal S64x64 .f32)) (a5 : (FVec Ideal S64 .f32)) (a6 : (FVec Ideal S64x64 .f32)) (a7 : (FVec Ideal S64 .f32)) (a8 : (FVec Ideal S64x32 .f32))
    (a9 : (FVec Ideal S32 .f32)) (a10 : (FVec Ideal S32x1 .f32)) (a11 : (FVec Ideal S1 .f32)) : (FVec Ideal S1024 .f32) :=
  tailOf
    (layer32
      (layer64
        (layer64 (embOf a1 a3) a4 (srcOf a0) (dstOf a0) (normOf (srcOf a0) (dstOf a0)) (selfwOf (dstOf a0)) a5)
        a6 (srcOf a0) (dstOf a0) (normOf (srcOf a0) (dstOf a0)) (selfwOf (dstOf a0)) a7)
      a8 (srcOf a0) (dstOf a0) (normOf (srcOf a0) (dstOf a0)) (selfwOf (dstOf a0)) a9)
    a2 a10 a11

end Cert.ReferenceIdeal.Stage

end
-- ==== Proof.RLayer.lean ====
/-
  One graph-convolution layer as the reference program computes it, and as the specification states it, are the same
  array. The reference multiplies by the host's matrix product, whose entry (r, j) is the sum over k of x (r, k) · W (k, j);
  it adds the self-loop term and the bias through broadcasts, which at entry (r, j) read the weight of row r and the bias
  of column j; and its rectifier selects z or z/10 on the sign of z, entry by entry.
-/
import proofs.«120870_j60653528154494_1_alg».proof.Proof.RStage
import proofs.«120870_j60653528154494_1_alg».proof.Proof.LibDotEntry
import Idealize.ShloMosaic.Lib.Pipeline.Value
import Idealize.ShloMosaic.Lib.ValueIdx

noncomputable section

namespace Cert.ReferenceIdeal.RLayer

open Cert.ReferenceIdeal Cert.ReferenceIdeal.Facts₀ Cert.ReferenceIdeal.Stage Cert.Spec
open Idealize.ShloMosaic Idealize.ShloMosaic.TcCoe Idealize.SL.Sem Idealize.ShloMosaic.StableHlo Idealize.ShloMosaic.ValueIdx

/-- One layer as the reference spells it: the projection by the host's matrix product, the aggregate, the self-loop term
    and the bias added through broadcasts of the weight vector and the bias vector, then the leaky rectifier as a
    selection between z and z/10 on the sign of z. -/
def refLayer64 (x : FVec Ideal S100000x64 .f32) (W : FVec Ideal S64x64 .f32) (s d : IVec S3200000 32) (nrm : FVec Ideal S3200000 .f32)
    (sw : FVec Ideal S100000 .f32) (b : FVec Ideal S64 .f32) : FVec Ideal S100000x64 .f32 :=
  select
    (cmpf .ogt
      (addf (addf (agg64 (Host.dotGeneral (F := Ideal) dot_S100000x64_S64x64_S100000x64_1_0_0_1_n_n none x W) s d nrm)
        (mulf (Host.dotGeneral (F := Ideal) dot_S100000x64_S64x64_S100000x64_1_0_0_1_n_n none x W)
          (broadcastInDim S100000x64 ![0, 1] bcast_S100000x1_S100000x64_0_1 (broadcastInDim S100000x1 ![0] bcast_S100000_S100000x1_0 sw))))
      (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32)))
    (addf (addf (agg64 (Host.dotGeneral (F := Ideal) dot_S100000x64_S64x64_S100000x64_1_0_0_1_n_n none x W) s d nrm)
        (mulf (Host.dotGeneral (F := Ideal) dot_S100000x64_S64x64_S100000x64_1_0_0_1_n_n none x W)
          (broadcastInDim S100000x64 ![0, 1] bcast_S100000x1_S100000x64_0_1 (broadcastInDim S100000x1 ![0] bcast_S100000_S100000x1_0 sw))))
      (broadcastInDim S100000x64 ![0, 1] bcast_S1x64_S100000x64_0_1 (broadcastInDim S1x64 ![1] bcast_S64_S1x64_1 b)))
    (mulf (broadcastInDim S100000x64 ![] bcast_S_S100000x64 (constant (F := Ideal) S_ .f32 0x3DCCCCCD#32))
      (addf (addf (agg64 (Host.dotGeneral (F := Ideal) dot_S100000x64_S64x64_S100000x64_1_0_0_1_n_n none x W) s d nrm)
        (mulf (Host.dotGeneral (F := Ideal) dot_S100000x64_S64x64_S100000x64_1_0_0_1_n_n none x W)
          (broadcastInDim S100000x64 ![0, 1] bcast_S100000x1_S100000x64_0_1 (broadcastInDim S100000x1 ![0] bcast_S100000_S100000x1_0 sw))))
      (broadcastInDim S100000x64 ![0, 1] bcast_S1x64_S100000x64_0_1 (broadcastInDim S1x64 ![1] bcast_S64_S1x64_1 b))))

/-- One layer as the reference spells it: the projection by the host's matrix product, the aggregate, the self-loop term
    and the bias added through broadcasts of the weight vector and the bias vector, then the leaky rectifier as a
    selection between z and z/10 on the sign of z. -/
def refLayer32 (x : FVec Ideal S100000x64 .f32) (W : FVec Ideal S64x32 .f32) (s d : IVec S3200000 32) (nrm : FVec Ideal S3200000 .f32)
    (sw : FVec Ideal S100000 .f32) (b : FVec Ideal S32 .f32) : FVec Ideal S100000x32 .f32 :=
  select
    (cmpf .ogt
      (addf (addf (agg32 (Host.dotGeneral (F := Ideal) dot_S100000x64_S64x32_S100000x32_1_0_0_1_n_n none x W) s d nrm)
        (mulf (Host.dotGeneral (F := Ideal) dot_S100000x64_S64x32_S100000x32_1_0_0_1_n_n none x W)
          (broadcastInDim S100000x32 ![0, 1] bcast_S100000x1_S100000x32_0_1 (broadcastInDim S100000x1 ![0] bcast_S100000_S100000x1_0 sw))))
      (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32)))
    (addf (addf (agg32 (Host.dotGeneral (F := Ideal) dot_S100000x64_S64x32_S100000x32_1_0_0_1_n_n none x W) s d nrm)
        (mulf (Host.dotGeneral (F := Ideal) dot_S100000x64_S64x32_S100000x32_1_0_0_1_n_n none x W)
          (broadcastInDim S100000x32 ![0, 1] bcast_S100000x1_S100000x32_0_1 (broadcastInDim S100000x1 ![0] bcast_S100000_S100000x1_0 sw))))
      (broadcastInDim S100000x32 ![0, 1] bcast_S1x32_S100000x32_0_1 (broadcastInDim S1x32 ![1] bcast_S32_S1x32_1 b)))
    (mulf (broadcastInDim S100000x32 ![] bcast_S_S100000x32 (constant (F := Ideal) S_ .f32 0x3DCCCCCD#32))
      (addf (addf (agg32 (Host.dotGeneral (F := Ideal) dot_S100000x64_S64x32_S100000x32_1_0_0_1_n_n none x W) s d nrm)
        (mulf (Host.dotGeneral (F := Ideal) dot_S100000x64_S64x32_S100000x32_1_0_0_1_n_n none x W)
          (broadcastInDim S100000x32 ![0, 1] bcast_S100000x1_S100000x32_0_1 (broadcastInDim S100000x1 ![0] bcast_S100000_S100000x1_0 sw))))
      (broadcastInDim S100000x32 ![0, 1] bcast_S1x32_S100000x32_0_1 (broadcastInDim S1x32 ![1] bcast_S32_S1x32_1 b))))

/-- The host's product of the 100000×64 feature matrix by the 64×64 weight matrix is the specification's matrix
    product: both have at entry (p, q) the sum over k of x (p, k) · W (k, q). -/
theorem dot64_eq (x : FVec Ideal S100000x64 .f32) (W : FVec Ideal S64x64 .f32) :
    Host.dotGeneral (F := Ideal) dot_S100000x64_S64x64_S100000x64_1_0_0_1_n_n none x W = Cert.Spec.dense x W := by
  funext i
  obtain ⟨p, q, rfl⟩ : ∃ (p : Fin 100000) (q : Fin 64), i = ix2 p q := ⟨i 0, i 1, eq_ix2 i⟩
  refine (Cert.Lib.DotEntry.dotGeneral_ix2 dot_S100000x64_S64x64_S100000x64_1_0_0_1_n_n rfl rfl
    (fun i c => by
      unfold DotDims.lhsIdx
      rw [dif_neg (show ¬(0 : Fin S100000x64.rank) ∈ dot_S100000x64_S64x64_S100000x64_1_0_0_1_n_n.lhsBatch by decide),
        dif_pos (show (0 : Fin S100000x64.rank) ∈ dot_S100000x64_S64x64_S100000x64_1_0_0_1_n_n.lhsNonContracting by decide)]
      rfl)
    (fun i c => dot_S100000x64_S64x64_S100000x64_1_0_0_1_n_n.lhsIdx_val_of_single rfl i c)
    (fun i c => dot_S100000x64_S64x64_S100000x64_1_0_0_1_n_n.rhsIdx_val_of_single rfl i c)
    (fun i c => by
      unfold DotDims.rhsIdx
      rw [dif_neg (show ¬(1 : Fin S64x64.rank) ∈ dot_S100000x64_S64x64_S100000x64_1_0_0_1_n_n.rhsBatch by decide),
        dif_pos (show (1 : Fin S64x64.rank) ∈ dot_S100000x64_S64x64_S100000x64_1_0_0_1_n_n.rhsNonContracting by decide)]
      rfl)
    x W p q).trans ?_
  exact (Cert.Spec.dense_ix2 x W p q).symm

/-- A vector of one weight per row, made a column and then repeated along the 64 columns, reads at entry (p, q)
    the weight of row p. -/
theorem bc_col64 (sw : FVec Ideal S100000 .f32) (p : Fin 100000) (q : Fin 64) :
    broadcastInDim S100000x64 ![0, 1] bcast_S100000x1_S100000x64_0_1
      (broadcastInDim S100000x1 ![0] bcast_S100000_S100000x1_0 sw) (ix2 p q) = sw (ix1 p) := by
  refine (broadcastInDim_apply ![0, 1] bcast_S100000x1_S100000x64_0_1 _ (ix2 p q) (ix2 p (0 : Fin 1)) ?_).trans ?_
  · exact fun a => match a with
      | ⟨0, _⟩ => by show p.val = if (100000 : Nat) = 1 then 0 else p.val; rw [if_neg (by decide)]
      | ⟨1, _⟩ => by show 0 = if (1 : Nat) = 1 then 0 else q.val; rw [if_pos rfl]
  · refine broadcastInDim_apply ![0] bcast_S100000_S100000x1_0 sw (ix2 p (0 : Fin 1)) (ix1 p) ?_
    exact fun a => match a with
      | ⟨0, _⟩ => by show p.val = if (100000 : Nat) = 1 then 0 else p.val; rw [if_neg (by decide)]

/-- A vector of one bias per column, made a row and then repeated along the 100000 rows, reads at entry (p, q)
    the bias of column q. -/
theorem bc_row64 (b : FVec Ideal S64 .f32) (p : Fin 100000) (q : Fin 64) :
    broadcastInDim S100000x64 ![0, 1] bcast_S1x64_S100000x64_0_1
      (broadcastInDim S1x64 ![1] bcast_S64_S1x64_1 b) (ix2 p q) = b (ix1 q) := by
  refine (broadcastInDim_apply ![0, 1] bcast_S1x64_S100000x64_0_1 _ (ix2 p q) (ix2 (0 : Fin 1) q) ?_).trans ?_
  · exact fun a => match a with
      | ⟨0, _⟩ => by show 0 = if (1 : Nat) = 1 then 0 else p.val; rw [if_pos rfl]
      | ⟨1, _⟩ => by show q.val = if (64 : Nat) = 1 then 0 else q.val; rw [if_neg (by decide)]
  · refine broadcastInDim_apply ![1] bcast_S64_S1x64_1 b (ix2 (0 : Fin 1) q) (ix1 q) ?_
    exact fun a => match a with
      | ⟨0, _⟩ => by show q.val = if (64 : Nat) = 1 then 0 else q.val; rw [if_neg (by decide)]

/-- A scalar constant repeated over the whole 100000×64 array reads, at every entry, the number its word denotes. -/
theorem bc_const64 (w : BitVec FTy.f32.bits) (i : S100000x64.Idx) :
    broadcastInDim S100000x64 ![] bcast_S_S100000x64 (constant (F := Ideal) S_ .f32 w) i
      = FloatOps.ofBits (F := Ideal) .f32 w :=
  (broadcastInDim_apply ![] bcast_S_S100000x64 (constant (F := Ideal) S_ .f32 w) i (fun a => a.elim0)
    (fun a => a.elim0)).trans rfl

/-- Entry (p, q) of the reference's self-loop, bias and rectifier stage, for any two constant arrays Z0 (compared
    against) and SL (the slope): with z = (a (p, q) + y (p, q) · sw p) + b q, it is z when z exceeds the first
    constant and the second constant times z otherwise. -/
theorem core64 (a y : FVec Ideal S100000x64 .f32) (sw : FVec Ideal S100000 .f32) (b : FVec Ideal S64 .f32)
    (Z0 SL : FVec Ideal S100000x64 .f32) (z0 sl : EReal) (hZ : ∀ i, Z0 i = z0) (hS : ∀ i, SL i = sl)
    (p : Fin 100000) (q : Fin 64) :
    select (cmpf .ogt (addf (addf a
        (mulf y
          (broadcastInDim S100000x64 ![0, 1] bcast_S100000x1_S100000x64_0_1 (broadcastInDim S100000x1 ![0] bcast_S100000_S100000x1_0 sw))))
      (broadcastInDim S100000x64 ![0, 1] bcast_S1x64_S100000x64_0_1 (broadcastInDim S1x64 ![1] bcast_S64_S1x64_1 b))) Z0) (addf (addf a
        (mulf y
          (broadcastInDim S100000x64 ![0, 1] bcast_S100000x1_S100000x64_0_1 (broadcastInDim S100000x1 ![0] bcast_S100000_S100000x1_0 sw))))
      (broadcastInDim S100000x64 ![0, 1] bcast_S1x64_S100000x64_0_1 (broadcastInDim S1x64 ![1] bcast_S64_S1x64_1 b))) (mulf SL (addf (addf a
        (mulf y
          (broadcastInDim S100000x64 ![0, 1] bcast_S100000x1_S100000x64_0_1 (broadcastInDim S100000x1 ![0] bcast_S100000_S100000x1_0 sw))))
      (broadcastInDim S100000x64 ![0, 1] bcast_S1x64_S100000x64_0_1 (broadcastInDim S1x64 ![1] bcast_S64_S1x64_1 b)))) (ix2 p q)
      = Scalar.select (FloatOps.cmpf (F := Ideal) (φ := .f32) .ogt (FloatOps.addf (F := Ideal) (φ := .f32) (FloatOps.addf (F := Ideal) (φ := .f32) (a (ix2 p q)) (FloatOps.mulf (F := Ideal) (φ := .f32) (y (ix2 p q)) (sw (ix1 p)))) (b (ix1 q))) z0) (FloatOps.addf (F := Ideal) (φ := .f32) (FloatOps.addf (F := Ideal) (φ := .f32) (a (ix2 p q)) (FloatOps.mulf (F := Ideal) (φ := .f32) (y (ix2 p q)) (sw (ix1 p)))) (b (ix1 q)))
          (FloatOps.mulf (F := Ideal) (φ := .f32) sl (FloatOps.addf (F := Ideal) (φ := .f32) (FloatOps.addf (F := Ideal) (φ := .f32) (a (ix2 p q)) (FloatOps.mulf (F := Ideal) (φ := .f32) (y (ix2 p q)) (sw (ix1 p)))) (b (ix1 q)))) := by
  rw [← hZ (ix2 p q), ← hS (ix2 p q), ← bc_col64 sw p q, ← bc_row64 b p q]
  rfl

/-- One layer with 64 output features, as the reference computes it, is the layer the specification states: the
    host's product is the matrix product, the two broadcasts read at entry (p, q) the self-loop weight of row p and
    the bias of column q, and the selection between z and z/10 on the sign of z is the leaky rectifier, entry by
    entry. -/
theorem refLayer64_eq (x : FVec Ideal S100000x64 .f32) (W : FVec Ideal S64x64 .f32) (s d : IVec S3200000 32)
    (nrm : FVec Ideal S3200000 .f32) (sw : FVec Ideal S100000 .f32) (b : FVec Ideal S64 .f32) :
    refLayer64 x W s d nrm sw b = layer64 x W s d nrm sw b := by
  unfold refLayer64 layer64
  rw [dot64_eq]
  generalize Cert.Spec.dense x W = y
  generalize agg64 y s d nrm = a
  funext i
  obtain ⟨p, q, rfl⟩ : ∃ (p : Fin 100000) (q : Fin 64), i = ix2 p q := ⟨i 0, i 1, eq_ix2 i⟩
  rw [combineV_ix2]
  unfold Cert.Spec.act
  exact core64 a y sw b
    (broadcastInDim S100000x64 ![] bcast_S_S100000x64 (constant (F := Ideal) S_ .f32 0x00000000#32))
    (broadcastInDim S100000x64 ![] bcast_S_S100000x64 (constant (F := Ideal) S_ .f32 0x3DCCCCCD#32))
    (FloatOps.ofBits (F := Ideal) .f32 0x00000000#32) (FloatOps.ofBits (F := Ideal) .f32 0x3DCCCCCD#32)
    (fun i => bc_const64 0x00000000#32 i) (fun i => bc_const64 0x3DCCCCCD#32 i) p q

/-- The host's product of the 100000×64 feature matrix by the 64×32 weight matrix is the specification's matrix
    product: both have at entry (p, q) the sum over k of x (p, k) · W (k, q). -/
theorem dot32_eq (x : FVec Ideal S100000x64 .f32) (W : FVec Ideal S64x32 .f32) :
    Host.dotGeneral (F := Ideal) dot_S100000x64_S64x32_S100000x32_1_0_0_1_n_n none x W = Cert.Spec.dense x W := by
  funext i
  obtain ⟨p, q, rfl⟩ : ∃ (p : Fin 100000) (q : Fin 32), i = ix2 p q := ⟨i 0, i 1, eq_ix2 i⟩
  refine (Cert.Lib.DotEntry.dotGeneral_ix2 dot_S100000x64_S64x32_S100000x32_1_0_0_1_n_n rfl rfl
    (fun i c => by
      unfold DotDims.lhsIdx
      rw [dif_neg (show ¬(0 : Fin S100000x64.rank) ∈ dot_S100000x64_S64x32_S100000x32_1_0_0_1_n_n.lhsBatch by decide),
        dif_pos (show (0 : Fin S100000x64.rank) ∈ dot_S100000x64_S64x32_S100000x32_1_0_0_1_n_n.lhsNonContracting by decide)]
      rfl)
    (fun i c => dot_S100000x64_S64x32_S100000x32_1_0_0_1_n_n.lhsIdx_val_of_single rfl i c)
    (fun i c => dot_S100000x64_S64x32_S100000x32_1_0_0_1_n_n.rhsIdx_val_of_single rfl i c)
    (fun i c => by
      unfold DotDims.rhsIdx
      rw [dif_neg (show ¬(1 : Fin S64x32.rank) ∈ dot_S100000x64_S64x32_S100000x32_1_0_0_1_n_n.rhsBatch by decide),
        dif_pos (show (1 : Fin S64x32.rank) ∈ dot_S100000x64_S64x32_S100000x32_1_0_0_1_n_n.rhsNonContracting by decide)]
      rfl)
    x W p q).trans ?_
  exact (Cert.Spec.dense_ix2 x W p q).symm

/-- A vector of one weight per row, made a column and then repeated along the 32 columns, reads at entry (p, q)
    the weight of row p. -/
theorem bc_col32 (sw : FVec Ideal S100000 .f32) (p : Fin 100000) (q : Fin 32) :
    broadcastInDim S100000x32 ![0, 1] bcast_S100000x1_S100000x32_0_1
      (broadcastInDim S100000x1 ![0] bcast_S100000_S100000x1_0 sw) (ix2 p q) = sw (ix1 p) := by
  refine (broadcastInDim_apply ![0, 1] bcast_S100000x1_S100000x32_0_1 _ (ix2 p q) (ix2 p (0 : Fin 1)) ?_).trans ?_
  · exact fun a => match a with
      | ⟨0, _⟩ => by show p.val = if (100000 : Nat) = 1 then 0 else p.val; rw [if_neg (by decide)]
      | ⟨1, _⟩ => by show 0 = if (1 : Nat) = 1 then 0 else q.val; rw [if_pos rfl]
  · refine broadcastInDim_apply ![0] bcast_S100000_S100000x1_0 sw (ix2 p (0 : Fin 1)) (ix1 p) ?_
    exact fun a => match a with
      | ⟨0, _⟩ => by show p.val = if (100000 : Nat) = 1 then 0 else p.val; rw [if_neg (by decide)]

/-- A vector of one bias per column, made a row and then repeated along the 100000 rows, reads at entry (p, q)
    the bias of column q. -/
theorem bc_row32 (b : FVec Ideal S32 .f32) (p : Fin 100000) (q : Fin 32) :
    broadcastInDim S100000x32 ![0, 1] bcast_S1x32_S100000x32_0_1
      (broadcastInDim S1x32 ![1] bcast_S32_S1x32_1 b) (ix2 p q) = b (ix1 q) := by
  refine (broadcastInDim_apply ![0, 1] bcast_S1x32_S100000x32_0_1 _ (ix2 p q) (ix2 (0 : Fin 1) q) ?_).trans ?_
  · exact fun a => match a with
      | ⟨0, _⟩ => by show 0 = if (1 : Nat) = 1 then 0 else p.val; rw [if_pos rfl]
      | ⟨1, _⟩ => by show q.val = if (32 : Nat) = 1 then 0 else q.val; rw [if_neg (by decide)]
  · refine broadcastInDim_apply ![1] bcast_S32_S1x32_1 b (ix2 (0 : Fin 1) q) (ix1 q) ?_
    exact fun a => match a with
      | ⟨0, _⟩ => by show q.val = if (32 : Nat) = 1 then 0 else q.val; rw [if_neg (by decide)]

/-- A scalar constant repeated over the whole 100000×32 array reads, at every entry, the number its word denotes. -/
theorem bc_const32 (w : BitVec FTy.f32.bits) (i : S100000x32.Idx) :
    broadcastInDim S100000x32 ![] bcast_S_S100000x32 (constant (F := Ideal) S_ .f32 w) i
      = FloatOps.ofBits (F := Ideal) .f32 w :=
  (broadcastInDim_apply ![] bcast_S_S100000x32 (constant (F := Ideal) S_ .f32 w) i (fun a => a.elim0)
    (fun a => a.elim0)).trans rfl

/-- Entry (p, q) of the reference's self-loop, bias and rectifier stage, for any two constant arrays Z0 (compared
    against) and SL (the slope): with z = (a (p, q) + y (p, q) · sw p) + b q, it is z when z exceeds the first
    constant and the second constant times z otherwise. -/
theorem core32 (a y : FVec Ideal S100000x32 .f32) (sw : FVec Ideal S100000 .f32) (b : FVec Ideal S32 .f32)
    (Z0 SL : FVec Ideal S100000x32 .f32) (z0 sl : EReal) (hZ : ∀ i, Z0 i = z0) (hS : ∀ i, SL i = sl)
    (p : Fin 100000) (q : Fin 32) :
    select (cmpf .ogt (addf (addf a
        (mulf y
          (broadcastInDim S100000x32 ![0, 1] bcast_S100000x1_S100000x32_0_1 (broadcastInDim S100000x1 ![0] bcast_S100000_S100000x1_0 sw))))
      (broadcastInDim S100000x32 ![0, 1] bcast_S1x32_S100000x32_0_1 (broadcastInDim S1x32 ![1] bcast_S32_S1x32_1 b))) Z0) (addf (addf a
        (mulf y
          (broadcastInDim S100000x32 ![0, 1] bcast_S100000x1_S100000x32_0_1 (broadcastInDim S100000x1 ![0] bcast_S100000_S100000x1_0 sw))))
      (broadcastInDim S100000x32 ![0, 1] bcast_S1x32_S100000x32_0_1 (broadcastInDim S1x32 ![1] bcast_S32_S1x32_1 b))) (mulf SL (addf (addf a
        (mulf y
          (broadcastInDim S100000x32 ![0, 1] bcast_S100000x1_S100000x32_0_1 (broadcastInDim S100000x1 ![0] bcast_S100000_S100000x1_0 sw))))
      (broadcastInDim S100000x32 ![0, 1] bcast_S1x32_S100000x32_0_1 (broadcastInDim S1x32 ![1] bcast_S32_S1x32_1 b)))) (ix2 p q)
      = Scalar.select (FloatOps.cmpf (F := Ideal) (φ := .f32) .ogt (FloatOps.addf (F := Ideal) (φ := .f32) (FloatOps.addf (F := Ideal) (φ := .f32) (a (ix2 p q)) (FloatOps.mulf (F := Ideal) (φ := .f32) (y (ix2 p q)) (sw (ix1 p)))) (b (ix1 q))) z0) (FloatOps.addf (F := Ideal) (φ := .f32) (FloatOps.addf (F := Ideal) (φ := .f32) (a (ix2 p q)) (FloatOps.mulf (F := Ideal) (φ := .f32) (y (ix2 p q)) (sw (ix1 p)))) (b (ix1 q)))
          (FloatOps.mulf (F := Ideal) (φ := .f32) sl (FloatOps.addf (F := Ideal) (φ := .f32) (FloatOps.addf (F := Ideal) (φ := .f32) (a (ix2 p q)) (FloatOps.mulf (F := Ideal) (φ := .f32) (y (ix2 p q)) (sw (ix1 p)))) (b (ix1 q)))) := by
  rw [← hZ (ix2 p q), ← hS (ix2 p q), ← bc_col32 sw p q, ← bc_row32 b p q]
  rfl

/-- One layer with 32 output features, as the reference computes it, is the layer the specification states: the
    host's product is the matrix product, the two broadcasts read at entry (p, q) the self-loop weight of row p and
    the bias of column q, and the selection between z and z/10 on the sign of z is the leaky rectifier, entry by
    entry. -/
theorem refLayer32_eq (x : FVec Ideal S100000x64 .f32) (W : FVec Ideal S64x32 .f32) (s d : IVec S3200000 32)
    (nrm : FVec Ideal S3200000 .f32) (sw : FVec Ideal S100000 .f32) (b : FVec Ideal S32 .f32) :
    refLayer32 x W s d nrm sw b = layer32 x W s d nrm sw b := by
  unfold refLayer32 layer32
  rw [dot32_eq]
  generalize Cert.Spec.dense x W = y
  generalize agg32 y s d nrm = a
  funext i
  obtain ⟨p, q, rfl⟩ : ∃ (p : Fin 100000) (q : Fin 32), i = ix2 p q := ⟨i 0, i 1, eq_ix2 i⟩
  rw [combineV_ix2]
  unfold Cert.Spec.act
  exact core32 a y sw b
    (broadcastInDim S100000x32 ![] bcast_S_S100000x32 (constant (F := Ideal) S_ .f32 0x00000000#32))
    (broadcastInDim S100000x32 ![] bcast_S_S100000x32 (constant (F := Ideal) S_ .f32 0x3DCCCCCD#32))
    (FloatOps.ofBits (F := Ideal) .f32 0x00000000#32) (FloatOps.ofBits (F := Ideal) .f32 0x3DCCCCCD#32)
    (fun i => bc_const32 0x00000000#32 i) (fun i => bc_const32 0x3DCCCCCD#32 i) p q

end Cert.ReferenceIdeal.RLayer

end
-- ==== Proof.RVal.lean ====
/-
  The idealized reference's result as one function of its twelve argument arrays. Each of the five pieces of its line
  of host operations leaves its operations' composed value of what the piece finds: the preparing piece the edge rows,
  the weights and the embedded features; a layer's 31 operations the specification's layer; the last piece the pooled
  and mapped output. The pieces in between leave the carried arrays alone, so the line's result is the network.
-/
import proofs.«120870_j60653528154494_1_alg».proof.Proof.RKeep
import proofs.«120870_j60653528154494_1_alg».proof.Proof.RStage
import proofs.«120870_j60653528154494_1_alg».proof.Proof.RLayer
import Idealize.ShloMosaic.Lib.StableHlo.Run

set_option maxRecDepth 16384

noncomputable section

namespace Cert.ReferenceIdeal.RVal

open Cert.ReferenceIdeal Cert.ReferenceIdeal.Facts₀ Cert.ReferenceIdeal.Gen Cert.ReferenceIdeal.ValueP Cert.ReferenceIdeal.Stage
open Cert.ReferenceIdeal.RLayer Cert.ReferenceIdeal.RKeep
open Idealize.ShloMosaic Idealize.ShloMosaic.TcCoe Idealize.SL.Sem Idealize.ShloMosaic.StableHlo

/-- The rectifier's selection, written in the program through typed references, is the plain three-operand operation
    on the same four buffers: the typed references only restate the buffers' types. -/
theorem sel60 : (TRef.ternary (TRef.of (T := ⟨S100000x64, .i1⟩) main_v57) (TRef.of (T := ⟨S100000x64, .f32⟩) main_v55) (TRef.of (T := ⟨S100000x64, .f32⟩) main_v59) (TRef.of (T := ⟨S100000x64, .f32⟩) main_v60) select : HloOp τ sig (Elt Ideal))
    = StableHlo.ternary main_v57 main_v55 main_v59 main_v60 (select : (⟨S100000x64, .i1⟩ : BufTy).Contents (Elt Ideal) → (⟨S100000x64, .f32⟩ : BufTy).Contents (Elt Ideal) → (⟨S100000x64, .f32⟩ : BufTy).Contents (Elt Ideal) → (⟨S100000x64, .f32⟩ : BufTy).Contents (Elt Ideal)) := rfl
theorem sel86 : (TRef.ternary (TRef.of (T := ⟨S100000x64, .i1⟩) main_v83) (TRef.of (T := ⟨S100000x64, .f32⟩) main_v81) (TRef.of (T := ⟨S100000x64, .f32⟩) main_v85) (TRef.of (T := ⟨S100000x64, .f32⟩) main_v86) select : HloOp τ sig (Elt Ideal))
    = StableHlo.ternary main_v83 main_v81 main_v85 main_v86 (select : (⟨S100000x64, .i1⟩ : BufTy).Contents (Elt Ideal) → (⟨S100000x64, .f32⟩ : BufTy).Contents (Elt Ideal) → (⟨S100000x64, .f32⟩ : BufTy).Contents (Elt Ideal) → (⟨S100000x64, .f32⟩ : BufTy).Contents (Elt Ideal)) := rfl
theorem sel112 : (TRef.ternary (TRef.of (T := ⟨S100000x32, .i1⟩) main_v109) (TRef.of (T := ⟨S100000x32, .f32⟩) main_v107) (TRef.of (T := ⟨S100000x32, .f32⟩) main_v111) (TRef.of (T := ⟨S100000x32, .f32⟩) main_v112) select : HloOp τ sig (Elt Ideal))
    = StableHlo.ternary main_v109 main_v107 main_v111 main_v112 (select : (⟨S100000x32, .i1⟩ : BufTy).Contents (Elt Ideal) → (⟨S100000x32, .f32⟩ : BufTy).Contents (Elt Ideal) → (⟨S100000x32, .f32⟩ : BufTy).Contents (Elt Ideal) → (⟨S100000x32, .f32⟩ : BufTy).Contents (Elt Ideal)) := rfl

/-- Spell a piece as its literal list of operations. -/
local macro "spell" : tactic => `(tactic| simp only [pre, lay1, lay2, lay3, tl, ops, List.take_succ_cons, List.take_zero,
  List.drop_succ_cons, List.drop_zero, sel60, sel86, sel112])

variable (V : Valuation τ sig (Elt Ideal))

/-! ## What each piece computes -/

theorem pre_v1 : after pre V (Proc.devRef .tc main_v1) = srcOf (V (Proc.devRef .tc main_arg0)) := by
  spell
  after_results_simp <;> rfl
theorem pre_v3 : after pre V (Proc.devRef .tc main_v3) = dstOf (V (Proc.devRef .tc main_arg0)) := by
  spell
  after_results_simp <;> rfl
theorem pre_v25 : after pre V (Proc.devRef .tc main_v25) = normOf (srcOf (V (Proc.devRef .tc main_arg0))) (dstOf (V (Proc.devRef .tc main_arg0))) := by
  spell
  after_results_simp <;> rfl
theorem pre_v26 : after pre V (Proc.devRef .tc main_v26) = selfwOf (dstOf (V (Proc.devRef .tc main_arg0))) := by
  spell
  after_results_simp <;> rfl
theorem pre_v34 : after pre V (Proc.devRef .tc main_v34) = embOf (V (Proc.devRef .tc main_arg1)) (V (Proc.devRef .tc main_arg3)) := by
  spell
  after_results_simp <;> rfl

theorem lay1_v60 : after lay1 V (Proc.devRef .tc main_v60)
    = layer64 (V (Proc.devRef .tc main_v34)) (V (Proc.devRef .tc main_arg4)) (V (Proc.devRef .tc main_v1)) (V (Proc.devRef .tc main_v3)) (V (Proc.devRef .tc main_v25))
        (V (Proc.devRef .tc main_v26)) (V (Proc.devRef .tc main_arg5)) := by
  refine Eq.trans ?_ (refLayer64_eq _ _ _ _ _ _ _)
  spell
  after_results_simp <;> rfl

theorem lay2_v86 : after lay2 V (Proc.devRef .tc main_v86)
    = layer64 (V (Proc.devRef .tc main_v60)) (V (Proc.devRef .tc main_arg6)) (V (Proc.devRef .tc main_v1)) (V (Proc.devRef .tc main_v3)) (V (Proc.devRef .tc main_v25))
        (V (Proc.devRef .tc main_v26)) (V (Proc.devRef .tc main_arg7)) := by
  refine Eq.trans ?_ (refLayer64_eq _ _ _ _ _ _ _)
  spell
  after_results_simp <;> rfl

theorem lay3_v112 : after lay3 V (Proc.devRef .tc main_v112)
    = layer32 (V (Proc.devRef .tc main_v86)) (V (Proc.devRef .tc main_arg8)) (V (Proc.devRef .tc main_v1)) (V (Proc.devRef .tc main_v3)) (V (Proc.devRef .tc main_v25))
        (V (Proc.devRef .tc main_v26)) (V (Proc.devRef .tc main_arg9)) := by
  refine Eq.trans ?_ (refLayer32_eq _ _ _ _ _ _ _)
  spell
  after_results_simp <;> rfl

theorem tl_v129 : after tl V (Proc.devRef .tc main_v129)
    = tailOf (V (Proc.devRef .tc main_v112)) (V (Proc.devRef .tc main_arg2)) (V (Proc.devRef .tc main_arg10)) (V (Proc.devRef .tc main_arg11)) := by
  spell
  after_results_simp <;> rfl

/-- The line's result buffer holds the network applied to the argument arrays. -/
theorem value : after (ops (F := Ideal)) V (Proc.devRef .tc main_v129)
    = final (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, StableHlo.after_append, StableHlo.after_append, StableHlo.after_append, StableHlo.after_append, tl_v129, lay3_v112, lay2_v86, lay1_v60]
  rw [lay3_keep_arg2, lay2_keep_arg2, lay1_keep_arg2, pre_keep_arg2, lay3_keep_arg10, lay2_keep_arg10, lay1_keep_arg10,
    pre_keep_arg10, lay3_keep_arg11, lay2_keep_arg11, lay1_keep_arg11, pre_keep_arg11,
    lay2_keep_arg8, lay1_keep_arg8, pre_keep_arg8, lay2_keep_arg9, lay1_keep_arg9, pre_keep_arg9,
    lay2_keep_v1, lay1_keep_v1, lay2_keep_v3, lay1_keep_v3, lay2_keep_v25, lay1_keep_v25, lay2_keep_v26, lay1_keep_v26,
    lay1_keep_arg6, pre_keep_arg6, lay1_keep_arg7, pre_keep_arg7, pre_keep_arg4, pre_keep_arg5,
    pre_v1, pre_v3, pre_v25, pre_v26, pre_v34]
  rfl

/-- Every weakly fair execution of the reference from a memory m terminates without a fault, with the result array at
    the network of the arguments as launched and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v129)
        = final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v129).trans (value _),
      (h c main_arg0).trans (ops_keep_arg0 _),
      (h c main_arg1).trans (ops_keep_arg1 _),
      (h c main_arg2).trans (ops_keep_arg2 _),
      (h c main_arg3).trans (ops_keep_arg3 _),
      (h c main_arg4).trans (ops_keep_arg4 _),
      (h c main_arg5).trans (ops_keep_arg5 _),
      (h c main_arg6).trans (ops_keep_arg6 _),
      (h c main_arg7).trans (ops_keep_arg7 _),
      (h c main_arg8).trans (ops_keep_arg8 _),
      (h c main_arg9).trans (ops_keep_arg9 _),
      (h c main_arg10).trans (ops_keep_arg10 _),
      (h c main_arg11).trans (ops_keep_arg11 _)⟩)
    (run_seq scopedRefs_eq scopedSems_eq defs main (fun _ => ops) main_eq (fun _ => ops_sub) m ρ)

end Cert.ReferenceIdeal.RVal

end
-- ==== Proof.Bridge.lean ====
/-
  The network spelt with the reference program's dimension records and spelt with the kernel program's is one function:
  the two programs' records for the same operation on the same shapes hold the same numbers.
-/
import proofs.«120870_j60653528154494_1_alg».proof.Proof.KStage
import proofs.«120870_j60653528154494_1_alg».proof.Proof.RStage

noncomputable section

namespace Cert.Bridge

open Cert.KernelIdeal Idealize.ShloMosaic Idealize.ShloMosaic.TcCoe Idealize.SL.Sem

theorem srcOf_eq (e : IVec S2x3200000 32) : Cert.ReferenceIdeal.Stage.srcOf e = Cert.KernelIdeal.Stage.srcOf e := rfl
theorem dstOf_eq (e : IVec S2x3200000 32) : Cert.ReferenceIdeal.Stage.dstOf e = Cert.KernelIdeal.Stage.dstOf e := rfl
theorem wrapCol_eq (i : IVec S3200000 32) : Cert.ReferenceIdeal.Stage.wrapCol i = Cert.KernelIdeal.Stage.wrapCol i := rfl
theorem dinvOf_eq (d : IVec S3200000 32) : Cert.ReferenceIdeal.Stage.dinvOf d = Cert.KernelIdeal.Stage.dinvOf d := rfl
theorem normOf_eq (s d : IVec S3200000 32) : Cert.ReferenceIdeal.Stage.normOf s d = Cert.KernelIdeal.Stage.normOf s d := rfl
theorem selfwOf_eq (d : IVec S3200000 32) : Cert.ReferenceIdeal.Stage.selfwOf d = Cert.KernelIdeal.Stage.selfwOf d := rfl
theorem embOf_eq (f : IVec S100000x1 32) (emb : FVec Ideal S10000x64 .f32) : Cert.ReferenceIdeal.Stage.embOf f emb = Cert.KernelIdeal.Stage.embOf f emb := rfl
theorem agg64_eq (y : FVec Ideal S100000x64 .f32) (s d : IVec S3200000 32) (nrm : FVec Ideal S3200000 .f32) :
    Cert.ReferenceIdeal.Stage.agg64 y s d nrm = Cert.KernelIdeal.Stage.agg64 y s d nrm := rfl
theorem agg32_eq (y : FVec Ideal S100000x32 .f32) (s d : IVec S3200000 32) (nrm : FVec Ideal S3200000 .f32) :
    Cert.ReferenceIdeal.Stage.agg32 y s d nrm = Cert.KernelIdeal.Stage.agg32 y s d nrm := rfl
theorem tailOf_eq (x : FVec Ideal S100000x32 .f32) (bt : IVec S100000 32) (fw : FVec Ideal S32x1 .f32) (fb : FVec Ideal S1 .f32) :
    Cert.ReferenceIdeal.Stage.tailOf x bt fw fb = Cert.KernelIdeal.Stage.tailOf x bt fw fb := rfl
theorem layer64_eq (x : FVec Ideal S100000x64 .f32) (W : FVec Ideal S64x64 .f32) (s d : IVec S3200000 32)
    (nrm : FVec Ideal S3200000 .f32) (sw : FVec Ideal S100000 .f32) (b : FVec Ideal S64 .f32) :
    Cert.ReferenceIdeal.Stage.layer64 x W s d nrm sw b = Cert.KernelIdeal.Stage.layer64 x W s d nrm sw b := by
  unfold Cert.ReferenceIdeal.Stage.layer64 Cert.KernelIdeal.Stage.layer64
  rw [agg64_eq]
theorem layer32_eq (x : FVec Ideal S100000x64 .f32) (W : FVec Ideal S64x32 .f32) (s d : IVec S3200000 32)
    (nrm : FVec Ideal S3200000 .f32) (sw : FVec Ideal S100000 .f32) (b : FVec Ideal S32 .f32) :
    Cert.ReferenceIdeal.Stage.layer32 x W s d nrm sw b = Cert.KernelIdeal.Stage.layer32 x W s d nrm sw b := by
  unfold Cert.ReferenceIdeal.Stage.layer32 Cert.KernelIdeal.Stage.layer32
  rw [agg32_eq]

/-- The two spellings of the whole network agree on every twelve argument arrays. -/
theorem final_eq (a0 : IVec S2x3200000 32) (a1 : IVec S100000x1 32) (a2 : IVec S100000 32) (a3 : FVec Ideal S10000x64 .f32)
    (a4 : FVec Ideal S64x64 .f32) (a5 : FVec Ideal S64 .f32) (a6 : FVec Ideal S64x64 .f32) (a7 : FVec Ideal S64 .f32)
    (a8 : FVec Ideal S64x32 .f32) (a9 : FVec Ideal S32 .f32) (a10 : FVec Ideal S32x1 .f32) (a11 : FVec Ideal S1 .f32) :
    Cert.ReferenceIdeal.Stage.final a0 a1 a2 a3 a4 a5 a6 a7 a8 a9 a10 a11 = Cert.KernelIdeal.Stage.final a0 a1 a2 a3 a4 a5 a6 a7 a8 a9 a10 a11 := by
  unfold Cert.ReferenceIdeal.Stage.final Cert.KernelIdeal.Stage.final
  rw [tailOf_eq, layer32_eq, layer64_eq, layer64_eq, embOf_eq, srcOf_eq, dstOf_eq, normOf_eq, selfwOf_eq]

end Cert.Bridge

end
-- ==== Proof.lean ====
/-
  A three-layer graph-convolution network on 100000 nodes and 3200000 edges, followed by mean pooling over 1024
  graphs and a linear output map. The kernel computes each layer's projection and each layer's combine step
  (aggregate + projection · self-loop weight + bias, then the leaky rectifier with slope the binary32 value nearest one
  tenth) in pallas_calls tiled over blocks of 10000 nodes, and everything else — the normalisation weights, the embedding
  lookup, the neighbour aggregation, the pooling — by the same host operations as the reference. At exact arithmetic a
  tile-by-tile matrix product into a zero accumulator is the host's matrix product, the roundings to bf16 are the
  identity, and the combine step groups its sum as the reference does, so no algebraic law beyond reading both sides
  entry by entry is needed and the precondition (finite inputs) is never opened. Both programs' results are the same
  function `final` of the twelve argument arrays; the frames are the generated ones, and the idealization rewrote nothing.
-/
import proofs.«120870_j60653528154494_1_alg».proof.Defs
import proofs.«120870_j60653528154494_1_alg».proof.Proof.Gen.Kernel
import proofs.«120870_j60653528154494_1_alg».proof.Proof.Gen.Kernel.Skeleton
import proofs.«120870_j60653528154494_1_alg».proof.Proof.Gen.Kernel.Launch
import proofs.«120870_j60653528154494_1_alg».proof.Proof.Gen.Kernel.Points
import proofs.«120870_j60653528154494_1_alg».proof.Proof.Gen.Kernel.Frame
import proofs.«120870_j60653528154494_1_alg».proof.Proof.Gen.KernelIdeal
import proofs.«120870_j60653528154494_1_alg».proof.Proof.Gen.KernelIdeal.Skeleton
import proofs.«120870_j60653528154494_1_alg».proof.Proof.Gen.KernelIdeal.Launch
import proofs.«120870_j60653528154494_1_alg».proof.Proof.Gen.KernelIdeal.Points
import proofs.«120870_j60653528154494_1_alg».proof.Proof.Gen.KernelIdeal.Frame
import proofs.«120870_j60653528154494_1_alg».proof.Proof.Gen.ReferenceIdeal
import proofs.«120870_j60653528154494_1_alg».proof.Proof.Gen.Pre_finite_inputs
import proofs.«120870_j60653528154494_1_alg».proof.Proof.KRun
import proofs.«120870_j60653528154494_1_alg».proof.Proof.KVal
import proofs.«120870_j60653528154494_1_alg».proof.Proof.RVal
import proofs.«120870_j60653528154494_1_alg».proof.Proof.Bridge
import Idealize.ShloMosaic.Adequacy
import Idealize.ShloMosaic.Init

noncomputable section

namespace Cert.Proof

open Idealize.ShloMosaic Idealize.SL.Sem

/-- The two idealized programs, run from memories that agree on the arguments, end with the same result: the network
    `final` of the arguments. The kernel's run names its result buffer's last contents, which the value theorem reads
    as `final`; the reference's run gives `final` of its own arguments, which are the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree =>
    ⟨fun c => Cert.KernelIdeal.Stage.final (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)),
     (θ_run Cert.KernelIdeal.defs _ _).mono
       (fun _ h c => ⟨(h c).1.trans (Cert.KernelIdeal.KVal.value m ρ c), (h c).2⟩) (Cert.KernelIdeal.KRun.run m ρ),
     (θ_run Cert.ReferenceIdeal.defs _ _).mono
       (fun _ h c => ⟨(h c).1.trans (by
          obtain ⟨e0, e1, e2, e3, e4, e5, e6, e7, e8, e9, e10, e11⟩ := hagree c
          rw [e0, e1, e2, e3, e4, e5, e6, e7, e8, e9, e10, e11]
          exact Cert.Bridge.final_eq _ _ _ _ _ _ _ _ _ _ _ _), (h c).2⟩) (Cert.ReferenceIdeal.RVal.run m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RVal.run m ρ),
  trivial,
  algebraic⟩

end Cert.Proof

end
